-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x1 : Shape := ⟨2, ![524288, 1]⟩
abbrev S524288x64 : Shape := ⟨2, ![524288, 64]⟩
abbrev S64x3 : Shape := ⟨2, ![64, 3]⟩
abbrev S64 : Shape := ⟨1, ![64]⟩
abbrev S64x64 : Shape := ⟨2, ![64, 64]⟩
abbrev S256x64 : Shape := ⟨2, ![256, 64]⟩
abbrev S256 : Shape := ⟨1, ![256]⟩
abbrev S1x64 : Shape := ⟨2, ![1, 64]⟩
abbrev S1 : Shape := ⟨1, ![1]⟩
abbrev S_ : Shape := ⟨0, ![]⟩

class Facts : Prop where
  bcast_S_S524288x1 : S_.BroadcastsInDim S524288x1 (![] : Fin 0 → Fin S524288x1.rank)
  reducesTo_S524288x1_S_d0_1 : S524288x1.ReducesTo [0, 1] S_
  h_S_ : 0 < S_.numel
  bcast_S_S524288x64 : S_.BroadcastsInDim S524288x64 (![] : Fin 0 → Fin S524288x64.rank)
  reducesTo_S524288x64_S_d0_1 : S524288x64.ReducesTo [0, 1] S_
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S256 .f32) (main_arg12 : FVec F S256 .f32) (main_arg13 : FVec F S1x64 .f32) (main_arg14 : FVec F S1 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S1x64 .f32 := Host.absf main_arg13
  let main_cst_24 : FVec F S_ .f32 := constant S_ .f32 0x7F800000#32
  let main_v65 : FVec F S1x64 .f32 := broadcastInDim S1x64 ![] bcast_S_S1x64 main_cst_24
  let main_v66 : IVec S1x64 1 := cmpf .olt main_v64 main_v65
  let main_c_25 : IVec S_ 1 := constantI S_ 1 1#1
  let main_v67 : IVec S_ 1 := (fun x v => Host.reduce IntOp.andi x v reducesTo_S1x64_S_d0_1 h_S_) main_v66 main_c_25
  fn_part4 (F := F) main_arg14 main_v63 main_v67

def fn_part2 {F : FTy → Type} [FloatOps F] (main_arg7 : FVec F S64x64 .f32) (main_arg8 : FVec F S64 .f32) (main_arg9 : FVec F S256x64 .f32) (main_arg10 : FVec F S256x64 .f32) (main_arg11 : FVec F S256 .f32) (main_arg12 : FVec F S256 .f32) (main_arg13 : FVec F S1x64 .f32) (main_arg14 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S256x64 .f32 := Host.absf main_arg9
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S256x64 .f32 := Host.absf main_arg10
  let main_cst_18 : FVec F S_ .f32 := constant S_ .f32 0x7F800000#32
  let main_v50 : FVec F S256x64 .f32 := broadcastInDim S256x64 ![] bcast_S_S256x64 main_cst_18
  fn_part3 (F := F) main_arg11 main_arg12 main_arg13 main_arg14 main_v48 main_v49 main_v50

def fn_part1 {F : FTy → Type} [FloatOps F] (main_arg4 : FVec F S524288x64 .f32) (main_arg5 : FVec F S64x3 .f32) (main_arg6 : FVec F S64 .f32) (main_arg7 : FVec F S64x64 .f32) (main_arg8 : FVec F S64 .f32) (main_arg9 : FVec F S256x64 .f32) (main_arg10 : FVec F S256x64 .f32) (main_arg11 : FVec F S256 .f32) (main_arg12 : FVec F S256 .f32) (main_arg13 : FVec F S1x64 .f32) (main_arg14 : FVec F S1 .f32) (main_v13 : IVec S_ 1) (main_v16 : IVec S524288x64 1) : IVec S_ 1 :=
  let main_c_5 : IVec S_ 1 := constantI S_ 1 1#1
  let main_v17 : IVec S_ 1 := (fun x v => Host.reduce IntOp.andi x v reducesTo_S524288x64_S_d0_1 h_S_) main_v16 main_c_5
  let main_v18 : IVec S_ 1 := andi main_v13 main_v17
  let main_v19 : FVec F S524288x64 .f32 := Host.absf main_arg4
  let main_cst_6 : FVec F S_ .f32 := constant S_ .f32 0x7F800000#32
  let main_v20 : FVec F S524288x64 .f32 := broadcastInDim S524288x64 ![] bcast_S_S524288x64 main_cst_6
  let main_v21 : IVec S524288x64 1 := cmpf .olt main_v19 main_v20
  let main_c_7 : IVec S_ 1 := constantI S_ 1 1#1
  let main_v22 : IVec S_ 1 := (fun x v => Host.reduce IntOp.andi x v reducesTo_S524288x64_S_d0_1 h_S_) main_v21 main_c_7
  let main_v23 : IVec S_ 1 := andi main_v18 main_v22
  let main_v24 : FVec F S64x3 .f32 := Host.absf main_arg5
  let main_cst_8 : FVec F S_ .f32 := constant S_ .f32 0x7F800000#32
  let main_v25 : FVec F S64x3 .f32 := broadcastInDim S64x3 ![] bcast_S_S64x3 main_cst_8
  let main_v26 : IVec S64x3 1 := cmpf .olt main_v24 main_v25
  let main_c_9 : IVec S_ 1 := constantI S_ 1 1#1
  let main_v27 : IVec S_ 1 := (fun x v => Host.reduce IntOp.andi x v reducesTo_S64x3_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S524288x1 .f32) (main_arg1 : FVec F S524288x1 .f32) (main_arg2 : FVec F S524288x1 .f32) (main_arg3 : FVec F S524288x64 .f32) (main_arg4 : FVec F S524288x64 .f32) (main_arg5 : FVec F S64x3 .f32) (main_arg6 : FVec F S64 .f32) (main_arg7 : FVec F S64x64 .f32) (main_arg8 : FVec F S64 .f32) (main_arg9 : FVec F S256x64 .f32) (main_arg10 : FVec F S256x64 .f32) (main_arg11 : FVec F S256 .f32) (main_arg12 : FVec F S256 .f32) (main_arg13 : FVec F S1x64 .f32) (main_arg14 : FVec F S1 .f32) : IVec S_ 1 :=
  let main_v0 : FVec F S524288x1 .f32 := Host.absf main_arg0
  let main_cst : FVec F S_ .f32 := constant S_ .f32 0x7F800000#32
  let main_v1 : FVec F S524288x1 .f32 := broadcastInDim S524288x1 ![] bcast_S_S524288x1 main_cst
  let main_v2 : IVec S524288x1 1 := cmpf .olt main_v0 main_v1
  let main_c : IVec S_ 1 := constantI S_ 1 1#1
  let main_v3 : IVec S_ 1 := (fun x v => Host.reduce IntOp.andi x v reducesTo_S524288x1_S_d0_1 h_S_) main_v2 main_c
  let main_v4 : FVec F S524288x1 .f32 := Host.absf main_arg1
  let main_cst_0 : FVec F S_ .f32 := constant S_ .f32 0x7F800000#32
  let main_v5 : FVec F S524288x1 .f32 := broadcastInDim S524288x1 ![] bcast_S_S524288x1 main_cst_0
  let main_v6 : IVec S524288x1 1 := cmpf .olt main_v4 main_v5
  let main_c_1 : IVec S_ 1 := constantI S_ 1 1#1
  let main_v7 : IVec S_ 1 := (fun x v => Host.reduce IntOp.andi x v reducesTo_S524288x1_S_d0_1 h_S_) main_v6 main_c_1
  let main_v8 : IVec S_ 1 := andi main_v3 main_v7
  let main_v9 : FVec F S524288x1 .f32 := Host.absf main_arg2
  let main_cst_2 : FVec F S_ .f32 := constant S_ .f32 0x7F800000#32
  let main_v10 : FVec F S524288x1 .f32 := broadcastInDim S524288x1 ![] bcast_S_S524288x1 main_cst_2
  let main_v11 : IVec S524288x1 1 := cmpf .olt main_v9 main_v10
  let main_c_3 : IVec S_ 1 := constantI S_ 1 1#1
  let main_v12 : IVec S_ 1 := (fun x v => Host.reduce IntOp.andi x v reducesTo_S524288x1_S_d0_1 h_S_) main_v11 main_c_3
  let main_v13 : IVec S_ 1 := andi main_v8 main_v12
  let main_v14 : FVec F S524288x64 .f32 := Host.absf main_arg3
  let main_cst_4 : FVec F S_ .f32 := constant S_ .f32 0x7F800000#32
  let main_v15 : FVec F S524288x64 .f32 := broadcastInDim S524288x64 ![] bcast_S_S524288x64 main_cst_4
  let main_v16 : IVec S524288x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S524288x1 : Shape := ⟨2, ![524288, 1]⟩
abbrev S524288x64 : Shape := ⟨2, ![524288, 64]⟩
abbrev S64x3 : Shape := ⟨2, ![64, 3]⟩
abbrev S64 : Shape := ⟨1, ![64]⟩
abbrev S64x64 : Shape := ⟨2, ![64, 64]⟩
abbrev S256x64 : Shape := ⟨2, ![256, 64]⟩
abbrev S256 : Shape := ⟨1, ![256]⟩
abbrev S1x64 : Shape := ⟨2, ![1, 64]⟩
abbrev S1 : Shape := ⟨1, ![1]⟩
abbrev S2048x1 : Shape := ⟨2, ![2048, 1]⟩
abbrev S2048x64 : Shape := ⟨2, ![2048, 64]⟩
abbrev S2048x3 : Shape := ⟨2, ![2048, 3]⟩
abbrev S3x64 : Shape := ⟨2, ![3, 64]⟩
abbrev S64x256 : Shape := ⟨2, ![64, 256]⟩
abbrev S2048x256 : Shape := ⟨2, ![2048, 256]⟩
abbrev S1x256 : Shape := ⟨2, ![1, 256]⟩
abbrev S64x1 : Shape := ⟨2, ![64, 1]⟩
abbrev S1x1 : Shape := ⟨2, ![1, 1]⟩

abbrev nBuf : Space → Nat
  | .hbm => 16
  | .vmem => 22
  | .smem => 0
  | _ => 0

abbrev bufTy : (tb : Table) → Fin (tcTables nBuf tb) → BufTy
  | .hbm, ⟨0, _⟩ => ⟨S524288x1, .f32⟩
  | .hbm, ⟨1, _⟩ => ⟨S524288x1, .f32⟩
  | .hbm, ⟨2, _⟩ => ⟨S524288x1, .f32⟩
  | .hbm, ⟨3, _⟩ => ⟨S524288x64, .f32⟩
  | .hbm, ⟨4, _⟩ => ⟨S524288x64, .f32⟩
  | .hbm, ⟨5, _⟩ => ⟨S64x3, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S256x64, .f32⟩
  | .hbm, ⟨10, _⟩ => ⟨S256x64, .f32⟩
  | .hbm, ⟨11, _⟩ => ⟨S256, .f32⟩
  | .hbm, ⟨12, _⟩ => ⟨S256, .f32⟩
  | .hbm, ⟨13, _⟩ => ⟨S1x64, .f32⟩
  | .hbm, ⟨14, _⟩ => ⟨S1, .f32⟩
  | .hbm, ⟨15, _⟩ => ⟨S524288x1, .f32⟩
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S64x3, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S256x64, .f32⟩
  | .local _ .vmem, ⟨15, _⟩ => ⟨S256x64, .f32⟩
  | .local _ .vmem, ⟨16, _⟩ => ⟨S256, .f32⟩
  | .local _ .vmem, ⟨17, _⟩ => ⟨S256, .f32⟩
  | .local _ .vmem, ⟨18, _⟩ => ⟨S1x64, .f32⟩
  | .local _ .vmem, ⟨19, _⟩ => ⟨S1, .f32⟩
  | .local _ .vmem, ⟨20, _⟩ => ⟨S2048x1, .f32⟩
  | .local _ .vmem, ⟨21, _⟩ => ⟨S2048x1, .f32⟩
  | _, _ => ⟨S524288x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2048x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  inb_S2048x1_S2048x1_0_0 : ∀ a, (![0, 0] : Fin 2 → Nat) a + S2048x1.size a ≤ S2048x1.size a
  h_S2048x1 : 0 < S2048x1.numel
  concatenates_S2048x1_S2048x1_S2048x1_S2048x3_d1 : Shape.Concatenates [S2048x1, S2048x1, S2048x1] S2048x3 1
  bitsLt_bf16_f32 : FTy.bits .bf16 < FTy.bits .f32
  inb_S64x3_S64x3_0_0 : ∀ a, (![0, 0] : Fin 2 → Nat) a + S64x3.size a ≤ S64x3.size a
  h_S64x3 : 0 < S64x3.numel
  inb_S64_S64_0 : ∀ a, (![0] : Fin 1 → Nat) a + S64.size a ≤ S64.size a
  h_S64 : 0 < S64.numel
  transposes_S64x3_p1_0_S3x64 : S64x3.Transposes [1, 0] S3x64
  shapeCasts_S64_S1x64 : S64.ShapeCasts S1x64
  broadcasts_S1x64_S2048x64 : S1x64.Broadcasts S2048x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S2048x64_S2048x64_0_0 : ∀ a, (![0, 0] : Fin 2 → Nat) a + S2048x64.size a ≤ S2048x64.size a
  h_S2048x64 : 0 < S2048x64.numel
  inb_S256x64_S256x64_0_0 : ∀ a, (![0, 0] : Fin 2 → Nat) a + S256x64.size a ≤ S256x64.size a
  h_S256x64 : 0 < S256x64.numel
  inb_S256_S256_0 : ∀ a, (![0] : Fin 1 → Nat) a + S256.size a ≤ S256.size a
  h_S256 : 0 < S256.numel
  transposes_S256x64_p1_0_S64x256 : S256x64.Transposes [1, 0] S64x256
  shapeCasts_S256_S1x256 : S256.ShapeCasts S1x256
  broadcasts_S1x256_S2048x256 : S1x256.Broadcasts S2048x256
  slices_S2048x256_o0_0_S2048x64 : S2048x256.Slices ![0, 0] S2048x64
  slices_S2048x256_o0_64_S2048x64 : S2048x256.Slices ![0, 64] S2048x64
  slices_S2048x256_o0_128_S2048x64 : S2048x256.Slices ![0, 128] S2048x64
  slices_S2048x256_o0_192_S2048x64 : S2048x256.Slices ![0, 192] S2048x64
  inb_S1x64_S1x64_0_0 : ∀ a, (![0, 0] : Fin 2 → Nat) a + S1x64.size a ≤ S1x64.size a
  h_S1x64 : 0 < S1x64.numel
  inb_S1_S1_0 : ∀ a, (![0] : Fin 1 → Nat) a + S1.size a ≤ S1.size a
  h_S1 : 0 < S1.numel
  transposes_S1x64_p1_0_S64x1 : S1x64.Transposes [1, 0] S64x1
  shapeCasts_S1_S1x1 : S1.ShapeCasts S1x1
  broadcasts_S1x1_S2048x1 : S1x1.Broadcasts S2048x1
  dot_S2048x3_S3x64_S2048x64_1_0_0_1_n_n_wf : DotDims.WF S2048x3 S3x64 S2048x64 [1] [0] [0] [1] [] []
  dot_S2048x64_S64x64_S2048x64_1_0_0_1_n_n_wf : DotDims.WF S2048x64 S64x64 S2048x64 [1] [0] [0] [1] [] []
  dot_S2048x64_S64x256_S2048x256_1_0_0_1_n_n_wf : DotDims.WF S2048x64 S64x256 S2048x256 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S524288x1.size a
  hwx0_0 : ∀ i : grid0.Coords, EltTy.bits .f32 = 32 ∨ (Rect.block (s := S524288x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S524288x1.size a
  hwx0_1 : ∀ i : grid0.Coords, EltTy.bits .f32 = 32 ∨ (Rect.block (s := S524288x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S524288x1.size a
  hwx0_2 : ∀ i : grid0.Coords, EltTy.bits .f32 = 32 ∨ (Rect.block (s := S524288x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S524288x64.size a
  hwx0_3 : ∀ i : grid0.Coords, EltTy.bits .f32 = 32 ∨ (Rect.block (s := S524288x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S524288x64.size a
  hwx0_4 : ∀ i : grid0.Coords, EltTy.bits .f32 = 32 ∨ (Rect.block (s := S524288x64) S2048x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x3.size a ≤ S64x3.size a
  hwx0_5 : ∀ i : grid0.Coords, EltTy.bits .f32 = 32 ∨ (Rect.block (s := S64x3) S64x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x64.size a ≤ S256x64.size a
  hwx0_9 : ∀ i : grid0.Coords, EltTy.bits .f32 = 32 ∨ (Rect.block (s := S256x64) S256x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x64.size a ≤ S256x64.size a
  hwx0_10 : ∀ i : grid0.Coords, EltTy.bits .f32 = 32 ∨ (Rect.block (s := S256x64) S256x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x1.size a ≤ S524288x1.size a
  hwx0_15 : ∀ i : grid0.Coords, EltTy.bits .f32 = 32 ∨ (Rect.block (s := S524288x1) S2048x1.size (cc0_transform_15 i) (hinb0_15 i)).WholeWords (EltTy.packing .f32)

variable [Facts₀]

def dot_S2048x3_S3x64_S2048x64_1_0_0_1_n_n : DotDims S2048x3 S3x64 S2048x64 where
  lhsContracting := [1]
  rhsContracting := [0]
  lhsNonContracting := [0]
  rhsNonContracting := [1]
  lhsBatch := []
  rhsBatch := []
  wf := dot_S2048x3_S3x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S2048x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S524288x1 : Shape := ⟨2, ![524288, 1]⟩
abbrev S524288x64 : Shape := ⟨2, ![524288, 64]⟩
abbrev S64x3 : Shape := ⟨2, ![64, 3]⟩
abbrev S64 : Shape := ⟨1, ![64]⟩
abbrev S64x64 : Shape := ⟨2, ![64, 64]⟩
abbrev S256x64 : Shape := ⟨2, ![256, 64]⟩
abbrev S256 : Shape := ⟨1, ![256]⟩
abbrev S1x64 : Shape := ⟨2, ![1, 64]⟩
abbrev S1 : Shape := ⟨1, ![1]⟩
abbrev S_ : Shape := ⟨0, ![]⟩
abbrev S524288x3 : Shape := ⟨2, ![524288, 3]⟩
abbrev S3x64 : Shape := ⟨2, ![3, 64]⟩
abbrev S64x256 : Shape := ⟨2, ![64, 256]⟩
abbrev S524288x256 : Shape := ⟨2, ![524288, 256]⟩
abbrev S1x256 : Shape := ⟨2, ![1, 256]⟩
abbrev S64x1 : Shape := ⟨2, ![64, 1]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S524288x1, .f32⟩
  | .hbm, ⟨1, _⟩ => ⟨S524288x1, .f32⟩
  | .hbm, ⟨2, _⟩ => ⟨S524288x1, .f32⟩
  | .hbm, ⟨3, _⟩ => ⟨S524288x64, .f32⟩
  | .hbm, ⟨4, _⟩ => ⟨S524288x64, .f32⟩
  | .hbm, ⟨5, _⟩ => ⟨S64x3, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S256x64, .f32⟩
  | .hbm, ⟨10, _⟩ => ⟨S256x64, .f32⟩
  | .hbm, ⟨11, _⟩ => ⟨S256, .f32⟩
  | .hbm, ⟨12, _⟩ => ⟨S256, .f32⟩
  | .hbm, ⟨13, _⟩ => ⟨S1x64, .f32⟩
  | .hbm, ⟨14, _⟩ => ⟨S1, .f32⟩
  | .hbm, ⟨15, _⟩ => ⟨S_, .f32⟩
  | .hbm, ⟨16, _⟩ => ⟨S524288x1, .f32⟩
  | .hbm, ⟨17, _⟩ => ⟨S524288x1, .f32⟩
  | .hbm, ⟨18, _⟩ => ⟨S524288x1, .f32⟩
  | .hbm, ⟨19, _⟩ => ⟨S524288x3, .f32⟩
  | .hbm, ⟨20, _⟩ => ⟨S3x64, .f32⟩
  | .hbm, ⟨21, _⟩ => ⟨S524288x64, .f32⟩
  | .hbm, ⟨22, _⟩ => ⟨S1x64, .f32⟩
  | .hbm, ⟨23, _⟩ => ⟨S524288x64, .f32⟩
  | .hbm, ⟨24, _⟩ => ⟨S524288x64, .f32⟩
  | .hbm, ⟨25, _⟩ => ⟨S_, .f32⟩
  | .hbm, ⟨26, _⟩ => ⟨S524288x64, .f32⟩
  | .hbm, ⟨27, _⟩ => ⟨S524288x64, .f32⟩
  | .hbm, ⟨28, _⟩ => ⟨S64x64, .f32⟩
  | .hbm, ⟨29, _⟩ => ⟨S524288x64, .f32⟩
  | .hbm, ⟨30, _⟩ => ⟨S1x64, .f32⟩
  | .hbm, ⟨31, _⟩ => ⟨S524288x64, .f32⟩
  | .hbm, ⟨32, _⟩ => ⟨S524288x64, .f32⟩
  | .hbm, ⟨33, _⟩ => ⟨S64x256, .f32⟩
  | .hbm, ⟨34, _⟩ => ⟨S524288x256, .f32⟩
  | .hbm, ⟨35, _⟩ => ⟨S1x256, .f32⟩
  | .hbm, ⟨36, _⟩ => ⟨S524288x256, .f32⟩
  | .hbm, ⟨37, _⟩ => ⟨S524288x256, .f32⟩
  | .hbm, ⟨38, _⟩ => ⟨S64x256, .f32⟩
  | .hbm, ⟨39, _⟩ => ⟨S524288x256, .f32⟩
  | .hbm, ⟨40, _⟩ => ⟨S524288x256, .f32⟩
  | .hbm, ⟨41, _⟩ => ⟨S1x256, .f32⟩
  | .hbm, ⟨42, _⟩ => ⟨S524288x256, .f32⟩
  | .hbm, ⟨43, _⟩ => ⟨S524288x256, .f32⟩
  | .hbm, ⟨44, _⟩ => ⟨S524288x64, .f32⟩
  | .hbm, ⟨45, _⟩ => ⟨S524288x64, .f32⟩
  | .hbm, ⟨46, _⟩ => ⟨S524288x64, .f32⟩
  | .hbm, ⟨47, _⟩ => ⟨S524288x64, .f32⟩
  | .hbm, ⟨48, _⟩ => ⟨S524288x64, .f32⟩
  | .hbm, ⟨49, _⟩ => ⟨S524288x64, .f32⟩
  | .hbm, ⟨50, _⟩ => ⟨S_, .f32⟩
  | .hbm, ⟨51, _⟩ => ⟨S524288x64, .f32⟩
  | .hbm, ⟨52, _⟩ => ⟨S524288x64, .f32⟩
  | .hbm, ⟨53, _⟩ => ⟨S_, .f32⟩
  | .hbm, ⟨54, _⟩ => ⟨S524288x64, .f32⟩
  | .hbm, ⟨55, _⟩ => ⟨S524288x64, .f32⟩
  | .hbm, ⟨56, _⟩ => ⟨S524288x64, .f32⟩
  | .hbm, ⟨57, _⟩ => ⟨S524288x64, .f32⟩
  | .hbm, ⟨58, _⟩ => ⟨S524288x64, .f32⟩
  | .hbm, ⟨59, _⟩ => ⟨S_, .f32⟩
  | .hbm, ⟨60, _⟩ => ⟨S524288x64, .f32⟩
  | .hbm, ⟨61, _⟩ => ⟨S524288x64, .f32⟩
  | .hbm, ⟨62, _⟩ => ⟨S_, .f32⟩
  | .hbm, ⟨63, _⟩ => ⟨S524288x64, .f32⟩
  | .hbm, ⟨64, _⟩ => ⟨S524288x64, .f32⟩
  | .hbm, ⟨65, _⟩ => ⟨S524288x64, .f32⟩
  | .hbm, ⟨66, _⟩ => ⟨S524288x64, .f32⟩
  | .hbm, ⟨67, _⟩ => ⟨S524288x64, .f32⟩
  | .hbm, ⟨68, _⟩ => ⟨S524288x64, .f32⟩
  | .hbm, ⟨69, _⟩ => ⟨S524288x64, .f32⟩
  | .hbm, ⟨70, _⟩ => ⟨S_, .f32⟩
  | .hbm, ⟨71, _⟩ => ⟨S524288x64, .f32⟩
  | .hbm, ⟨72, _⟩ => ⟨S524288x64, .f32⟩
  | .hbm, ⟨73, _⟩ => ⟨S_, .f32⟩
  | .hbm, ⟨74, _⟩ => ⟨S524288x64, .f32⟩
  | .hbm, ⟨75, _⟩ => ⟨S524288x64, .f32⟩
  | .hbm, ⟨76, _⟩ => ⟨S524288x64, .f32⟩
  | .hbm, ⟨77, _⟩ => ⟨S524288x64, .f32⟩
  | .hbm, ⟨78, _⟩ => ⟨S64x1, .f32⟩
  | .hbm, ⟨79, _⟩ => ⟨S524288x1, .f32⟩
  | .hbm, ⟨80, _⟩ => ⟨S1x1, .f32⟩
  | .hbm, ⟨81, _⟩ => ⟨S524288x1, .f32⟩
  | .hbm, ⟨82, _⟩ => ⟨S524288x1, .f32⟩
  | _, _ => ⟨S524288x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_cst : Ref sig .tc := ⟨.hbm, 25, rfl⟩
abbrev main_call0_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_0 : Ref sig .tc := ⟨.hbm, 50, rfl⟩
abbrev main_v32 : Ref sig .tc := ⟨.hbm, 51, rfl⟩
abbrev main_v33 : Ref sig .tc := ⟨.hbm, 52, rfl⟩
abbrev main_cst_1 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_2 : Ref sig .tc := ⟨.hbm, 59, rfl⟩
abbrev main_v39 : Ref sig .tc := ⟨.hbm, 60, rfl⟩
abbrev main_v40 : Ref sig .tc := ⟨.hbm, 61, rfl⟩
abbrev main_cst_3 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  bcast_S_S524288x1 : S_.BroadcastsInDim S524288x1 (![] : Fin 0 → Fin S524288x1.rank)
  concatenates_S524288x1_S524288x1_S524288x1_S524288x3_d1 : Shape.Concatenates [S524288x1, S524288x1, S524288x1] S524288x3 1
  transposes_S64x3_S3x64_1_0 : S64x3.Transposes [1, 0] S3x64
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  transposes_S64x64_S64x64_1_0 : S64x64.Transposes [1, 0] S64x64
  transposes_S256x64_S64x256_1_0 : S256x64.Transposes [1, 0] S64x256
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  slices_S524288x256_S524288x64_0_0 : S524288x256.Slices ![0, 0] S524288x64
  slices_S524288x256_S524288x64_0_64 : S524288x256.Slices ![0, 64] S524288x64
  slices_S524288x256_S524288x64_0_128 : S524288x256.Slices ![0, 128] S524288x64
  slices_S524288x256_S524288x64_0_192 : S524288x256.Slices ![0, 192] S524288x64
  transposes_S1x64_S64x1_1_0 : S1x64.Transposes [1, 0] S64x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  dot_S524288x3_S3x64_S524288x64_1_0_0_1_n_n_wf : DotDims.WF S524288x3 S3x64 S524288x64 [1] [0] [0] [1] [] []
  dot_S524288x64_S64x64_S524288x64_1_0_0_1_n_n_wf : DotDims.WF S524288x64 S64x64 S524288x64 [1] [0] [0] [1] [] []
  dot_S524288x64_S64x256_S524288x256_1_0_0_1_n_n_wf : DotDims.WF S524288x64 S64x256 S524288x256 [1] [0] [0] [1] [] []
  dot_S524288x64_S64x1_S524288x1_1_0_0_1_n_n_wf : DotDims.WF S524288x64 S64x1 S524288x1 [1] [0] [0] [1] [] []

variable [Facts₀]

def dot_S524288x3_S3x64_S524288x64_1_0_0_1_n_n : DotDims S524288x3 S3x64 S524288x64 where
  lhsContracting := [1]
  rhsContracting := [0]
  lhsNonContracting := [0]
  rhsNonContracting := [1]
  lhsBatch := []
  rhsBatch := []
  wf := dot_S524288x3_S3x64_S524288x64_1_0_0_1_n_n_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def dot_S524288x64_S64x256_S524288x256_1_0_0_1_n_n : DotDims S524288x64 S64x256 S524288x256 where
  lhsContracting := [1]
  rhsContracting := [0]
  lhsNonContracting := [0]
  rhsNonContracting := [1]
  lhsBatch := []
  rhsBatch := []
  wf := dot_S524288x64_S64x256_S524288x256_1_0_0_1_n_n_wf
def dot_S524288x64_S64x1_S524288x1_1_0_0_1_n_n : DotDims S524288x64 S64x1 S524288x1 where
  lhsContracting := [1]
  rhsContracting := [0]
  lhsNonContracting := [0]
  rhsNonContracting := [1]
  lhsBatch := []
  rhsBatch := []
  wf := dot_S524288x64_S64x1_S524288x1_1_0_0_1_n_n_wf

class Facts : Prop extends Facts₀ where

variable [Facts]
-- ==== Proof.LibPlainMatmul.lean ====
/-
  A plain matrix product read at one entry, over the extended reals.

  The product of an M×K matrix by a K×N matrix with no batch axis contracts the left operand's columns against the
  right operand's rows.  Added into the all-zero matrix, its entry (p, q) is the plain sum
      Σ_{k < K}  lhs (p, k) · rhs (k, q),
  the sum over the one contraction axis re-indexed by that axis's coordinate.  Nothing of real arithmetic is used
  beyond 0 + x = x, so the statement holds at the infinities as well.

  A one-row matrix laid along every row of an M×N matrix reads, at (p, q), its entry (0, q).

  Together: entry (p, q) of  f (lhs · rhs + row)  applied entrywise, for any scalar function f.
-/
import Idealize.ShloMosaic.Lib.ValueIdx
import Idealize.ShloMosaic.Lib.Pipeline.Value
import Idealize.ShloMosaic.PureOps.Ideal.Laws

noncomputable section

open scoped BigOperators

namespace Idealize.ShloMosaic.PlainMatmul

open Idealize.ShloMosaic Idealize.ShloMosaic.ValueIdx

variable {M K N : Nat}

/-- The dimension numbers of a plain product: the left operand contracts its columns (axis 1), the right operand its
    rows (axis 0); the remaining axes are the result's rows and columns; there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable (D : DotDims ⟨2, ![M, K]⟩ ⟨2, ![K, N]⟩ ⟨2, ![M, N]⟩)

/-- One axis is contracted … -/
theorem contr_rank (hD : IsPlain D) : D.contr.rank = 1 := by
  rw [D.rank_contr, hD.lc]; rfl

/-- … and its extent is the left operand's number of columns. -/
theorem contr_size (hD : IsPlain D) : D.contr.size ⟨0, by rw [contr_rank D hD]; exact Nat.one_pos⟩ = K := by
  have h1 : 0 < D.lhsContracting.length := by rw [hD.lc]; exact Nat.one_pos
  have h2 : D.lhsContracting[0]'h1 = (1 : Fin 2) := List.getElem_of_eq hD.lc h1
  rw [D.size_contr 0 h1, h2]
  rfl

/-- The left operand is read in the result's row … -/
theorem lhsIdx_row (hD : IsPlain D) (j : (⟨2, ![M, N]⟩ : Shape).Idx) (k : D.contr.Idx) : (D.lhsIdx j k 0).val = (j 0).val := by
  obtain ⟨lc, rc, ln, rn, lb, rb, wf⟩ := D
  obtain ⟨h1, h2, h3, h4, h5, h6⟩ := hD
  dsimp only at h1 h2 h3 h4 h5 h6
  subst h1 h2 h3 h4 h5 h6
  rfl

/-- … and the right operand in the result's column. -/
theorem rhsIdx_col (hD : IsPlain D) (j : (⟨2, ![M, N]⟩ : Shape).Idx) (k : D.contr.Idx) : (D.rhsIdx j k 1).val = (j 1).val := by
  obtain ⟨lc, rc, ln, rn, lb, rb, wf⟩ := D
  obtain ⟨h1, h2, h3, h4, h5, h6⟩ := hD
  dsimp only at h1 h2 h3 h4 h5 h6
  subst h1 h2 h3 h4 h5 h6
  rfl

/-- The contraction position, as a number below the common extent. -/
abbrev contrFin (hD : IsPlain D) : D.contr.Idx ≃ Fin K := contrEquiv1 D K (contr_rank D hD) (contr_size D hD)

/-- At contraction position `k` the left operand is read at (row, k) … -/
theorem lhsIdx_eq (hD : IsPlain D) (p : Fin M) (q : Fin N) (k : Fin K) :
    D.lhsIdx (ix2 p q) ((contrFin D hD).symm k) = ix2 p k := by
  funext a
  apply Fin.ext
  match a with
  | ⟨0, _⟩ => exact lhsIdx_row D hD _ _
  | ⟨1, _⟩ => exact (D.lhsIdx_val_of_single hD.lc _ _).trans (contrEquiv1_symm_val D K _ _ k)

/-- … and the right operand at (k, column). -/
theorem rhsIdx_eq (hD : IsPlain D) (p : Fin M) (q : Fin N) (k : Fin K) :
    D.rhsIdx (ix2 p q) ((contrFin D hD).symm k) = ix2 k q := by
  funext a
  apply Fin.ext
  match a with
  | ⟨0, _⟩ => exact (D.rhsIdx_val_of_single hD.rc _ _).trans (contrEquiv1_symm_val D K _ _ k)
  | ⟨1, _⟩ => exact rhsIdx_col D hD _ _

/-- ENTRY (p, q) OF A PLAIN PRODUCT added into the zero matrix: Σ_k lhs (p, k) · rhs (k, q). -/
theorem matmul_zero_apply (hD : IsPlain D) {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrFin D hD).symm]
  refine Finset.sum_congr rfl fun k _ => ?_
  rw [lhsIdx_eq D hD p q k, rhsIdx_eq D hD p q k]

/-- A one-row matrix laid along every row reads, at (p, q), its entry (0, q). -/
theorem broadcastRow_apply {α : Type} (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 (0 : Fin 1) q) := by
  refine broadcastTo_apply b h (ix2 p q) (ix2 (0 : Fin 1) q) fun a => ?_
  match a with
  | ⟨0, _⟩ => exact (if_pos rfl).symm
  | ⟨1, _⟩ =>
    by_cases hN : N = 1
    · subst hN
      show (q : ℕ) = if (1 : ℕ) = 1 then 0 else (q : ℕ)
      rw [if_pos rfl]; exact Nat.lt_one_iff.mp q.isLt
    · exact (if_neg hN).symm

/-- ENTRY (p, q) of a scalar function applied entrywise to (product + broadcast row). -/
theorem entry_apply (hD : IsPlain D) {φ₁ φ₂ : FTy} (prec : Option ContractPrecision) (f : EReal → EReal)
    (lhs : FVec Ideal ⟨2, ![M, K]⟩ φ₁) (rhs : FVec Ideal ⟨2, ![K, N]⟩ φ₂)
    (b : FVec Ideal ⟨2, ![1, N]⟩ .f32) (h : (⟨2, ![1, N]⟩ : Shape).Broadcasts ⟨2, ![M, N]⟩) (p : Fin M) (q : Fin N) :
    f (FloatOps.matmul D prec lhs rhs (constant (F := Ideal) ⟨2, ![M, N]⟩ .f32 0x00000000#32) (ix2 p q)
        + broadcastTo ⟨2, ![M, N]⟩ b h (ix2 p q))
      = f ((∑ k : Fin K, lhs (ix2 p k) * rhs (ix2 k q)) + b (ix2 (0 : Fin 1) q)) := by
  rw [matmul_zero_apply D hD, broadcastRow_apply]

end Idealize.ShloMosaic.PlainMatmul

end
-- ==== Proof.LibDenseT.lean ====
/-
  Dense layers with transposed weights, read at one entry, over the extended reals, for any sizes.

  A layer y = x · Wᵀ + b stores its weights output-unit-major (W is N×K for K inputs and N outputs) and its bias as a
  length-N vector.  A kernel transposes W, multiplies (adding into the zero matrix), lays the bias as one row and
  repeats it down the M rows, and adds.  Read at entry (p, q):

  * the product against the transposed weights is  Σ_k x (p, k) · W (q, k);
  * the repeated bias row is  b q;
  * so the layer is  Σ_k x (p, k) · W (q, k) + b q.

  Also: three one-column matrices set side by side read, at (r, k), the k-th one's entry (r, 0); and a run of w columns
  cut out of a wider matrix from column o on reads, at (r, j), the wide matrix's entry (r, o + j).

  The statements take row p of the left operand, the weights and the bias as plain functions of coordinates, with the
  equations saying that the operands hold them, so a layer's input can be whatever the previous layer was shown to
  compute.  Nothing of real arithmetic is used beyond 0 + x = x, so everything holds at the infinities too.  Built on the
  plain matrix product read at an entry (the file LibPlainMatmul beside this one: the import line names its place).
-/
import Idealize.ShloMosaic.Lib.ValueLayout
import proofs.«161773_j5076651344477_1_alg».proof.Proof.LibPlainMatmul

noncomputable section

open scoped BigOperators

namespace Idealize.ShloMosaic.DenseT

open Idealize.ShloMosaic Idealize.ShloMosaic.ValueIdx Idealize.ShloMosaic.PlainMatmul

variable {M K N : Nat}

/-- Entry (p, q) of a product against a transposed weight matrix, added into zero: Σ_k x k · Wf q k, when row `p` of
    the left operand is `x` and the weight matrix holds `Wf`. -/
theorem matmulT_apply (D : DotDims ⟨2, ![M, K]⟩ ⟨2, ![K, N]⟩ ⟨2, ![M, N]⟩) (hD : IsPlain D) {φ₁ φ₂ : FTy}
    (lhs : FVec Ideal ⟨2, ![M, K]⟩ φ₁) (W : FVec Ideal ⟨2, ![N, K]⟩ φ₂)
    (hT : (⟨2, ![N, K]⟩ : Shape).Transposes [1, 0] ⟨2, ![K, N]⟩) (p : Fin M) (q : Fin N)
    (x : Fin K → EReal) (Wf : Fin N → Fin K → EReal)
    (hx : ∀ k, lhs (ix2 p k) = x k) (hW : ∀ q k, W (ix2 q k) = Wf q k) :
    FloatOps.matmul D none lhs (transpose ⟨2, ![K, N]⟩ [1, 0] W hT) (constant (F := Ideal) ⟨2, ![M, N]⟩ .f32 0x00000000#32) (ix2 p q)
      = ∑ k : Fin K, x k * Wf q k := by
  rw [matmul_zero_apply D hD]
  refine Finset.sum_congr rfl fun k _ => ?_
  rw [transpose_ix2_apply, hx, hW]

/-- Entry (p, q) of a length-N vector laid as one row and repeated down the rows: its entry q. -/
theorem biasRow_apply {α : Type} (b : (⟨1, ![N]⟩ : Shape).Idx → α) (hc : (⟨1, ![N]⟩ : Shape).ShapeCasts ⟨2, ![1, N]⟩)
    (hb : (⟨2, ![1, N]⟩ : Shape).Broadcasts ⟨2, ![M, N]⟩) (p : Fin M) (q : Fin N) (bf : Fin N → α)
    (hbf : ∀ q, b (ix1 q) = bf q) :
    broadcastTo ⟨2, ![M, N]⟩ (shapeCast ⟨2, ![1, N]⟩ b hc) hb (ix2 p q) = bf q := by
  rw [broadcastRow_apply, shapeCast_a_1a_apply, hbf]

/-- Entry (p, q) of a dense layer: the product against the transposed weights plus the repeated bias row. -/
theorem denseT_apply (D : DotDims ⟨2, ![M, K]⟩ ⟨2, ![K, N]⟩ ⟨2, ![M, N]⟩) (hD : IsPlain D) {φ₁ φ₂ : FTy}
    (lhs : FVec Ideal ⟨2, ![M, K]⟩ φ₁) (W : FVec Ideal ⟨2, ![N, K]⟩ φ₂)
    (hT : (⟨2, ![N, K]⟩ : Shape).Transposes [1, 0] ⟨2, ![K, N]⟩)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (q : Fin N)
    (x : Fin K → EReal) (Wf : Fin N → Fin K → EReal) (bf : Fin N → EReal)
    (hx : ∀ k, lhs (ix2 p k) = x k) (hW : ∀ q k, W (ix2 q k) = Wf q k) (hbf : ∀ q, b (ix1 q) = bf q) :
    addf (FloatOps.matmul D none lhs (transpose ⟨2, ![K, N]⟩ [1, 0] W hT) (constant (F := Ideal) ⟨2, ![M, N]⟩ .f32 0x00000000#32))
        (broadcastTo ⟨2, ![M, N]⟩ (shapeCast ⟨2, ![1, N]⟩ b hc) hb) (ix2 p q)
      = (∑ k : Fin K, x k * Wf q k) + bf q := by
  rw [addf_apply, matmulT_apply D hD lhs W hT p q x Wf hx hW, biasRow_apply b hc hb p q bf hbf]

/-- Entry (r, k) of three one-column matrices set side by side: the k-th one's entry (r, 0). -/
theorem concat3_apply {α : Type} (a b c : (⟨2, ![M, 1]⟩ : Shape).Idx → α)
    (h : Shape.Concatenates (([⟨⟨2, ![M, 1]⟩, a⟩, ⟨⟨2, ![M, 1]⟩, b⟩, ⟨⟨2, ![M, 1]⟩, c⟩] : List ((s : Shape) × (s.Idx → α))).map (·.1)) ⟨2, ![M, 3]⟩ 1)
    (r : Fin M) :
    concatenate ⟨2, ![M, 3]⟩ 1 [⟨⟨2, ![M, 1]⟩, a⟩, ⟨⟨2, ![M, 1]⟩, b⟩, ⟨⟨2, ![M, 1]⟩, c⟩] h (ix2 r (0 : Fin 3)) = a (ix2 r 0)
    ∧ concatenate ⟨2, ![M, 3]⟩ 1 [⟨⟨2, ![M, 1]⟩, a⟩, ⟨⟨2, ![M, 1]⟩, b⟩, ⟨⟨2, ![M, 1]⟩, c⟩] h (ix2 r (1 : Fin 3)) = b (ix2 r 0)
    ∧ concatenate ⟨2, ![M, 3]⟩ 1 [⟨⟨2, ![M, 1]⟩, a⟩, ⟨⟨2, ![M, 1]⟩, b⟩, ⟨⟨2, ![M, 1]⟩, c⟩] h (ix2 r (2 : Fin 3)) = c (ix2 r 0) := by
  refine ⟨?_, ?_, ?_⟩
  · refine concatenate_apply_piece (1 : Fin 2) _ h (ix2 r (0 : Fin 3)) 0 (by show (0 : Nat) < 3; decide) ⟨2, ![M, 1]⟩ a rfl rfl 0 rfl (ix2 r 0) ?_ rfl
    intro d hd
    match d with
    | ⟨0, _⟩ => rfl
    | ⟨1, _⟩ => exact absurd rfl hd
  · refine concatenate_apply_piece (1 : Fin 2) _ h (ix2 r (1 : Fin 3)) 1 (by show (1 : Nat) < 3; decide) ⟨2, ![M, 1]⟩ b rfl rfl 1 rfl (ix2 r 0) ?_ rfl
    intro d hd
    match d with
    | ⟨0, _⟩ => rfl
    | ⟨1, _⟩ => exact absurd rfl hd
  · refine concatenate_apply_piece (1 : Fin 2) _ h (ix2 r (2 : Fin 3)) 2 (by show (2 : Nat) < 3; decide) ⟨2, ![M, 1]⟩ c rfl rfl 2 rfl (ix2 r 0) ?_ rfl
    intro d hd
    match d with
    | ⟨0, _⟩ => rfl
    | ⟨1, _⟩ => exact absurd rfl hd

/-- Entry (r, j) of `w` columns cut out of `Wd` from column `o` on: the wide matrix's entry (r, o + j). -/
theorem cols_apply {α : Type} {Wd w : Nat} (o : Nat) (ho : o + w ≤ Wd) (x : (⟨2, ![M, Wd]⟩ : Shape).Idx → α)
    (h : (⟨2, ![M, Wd]⟩ : Shape).Slices ![0, o] ⟨2, ![M, w]⟩) (r : Fin M) (j : Fin w) :
    extractStridedSlice ⟨2, ![M, w]⟩ ![0, o] x h (ix2 r j)
      = x (ix2 r (⟨o + j.val, by have := j.isLt; omega⟩ : Fin Wd)) := by
  refine extractStridedSlice_apply _ x h _ _ fun a => ?_
  match a with
  | ⟨0, _⟩ => exact (Nat.zero_add _).symm
  | ⟨1, _⟩ => rfl

end Idealize.ShloMosaic.DenseT

end
-- ==== Proof.Spec.lean ====
/-
  What one row of the output is, as a function of that row of the five per-row inputs and of the ten weight arrays.

  Each of the 524288 rows is treated alone.  From the row's gradient g, parameter p and momentum m₀ the three features
  are (g, p, μ·m₀ + g), μ the momentum coefficient.  Two dense layers follow (64 hidden units each, the first clipped
  below at zero), then one step of an LSTM cell: the 256 gate pre-activations are
      hidden₂ · W_ihᵀ + b_ih + h · W_hhᵀ + b_hh
  (added in this order), read as four runs of 64 columns (input, forget, candidate, output); the new cell state is
      σ(forget) · c + σ(input) · tanh(candidate),
  the new hidden state σ(output) · tanh(cell), and the row's result is the hidden state against the one output row of
  weights plus its bias.  σ is the logistic function 1 / (1 + e^(-x)).  Everything is over the extended reals, with
  sums in the order written; no law of arithmetic is used anywhere, so nothing here needs finiteness.
-/
import Idealize.ShloMosaic.PureOps.Ideal
import Idealize.ShloMosaic.Lib.ValueIdx

noncomputable section

open scoped BigOperators

namespace Cert.RowSpec

open Idealize.ShloMosaic Idealize.ShloMosaic.ValueIdx

/-- The ten weight arrays, each read by coordinates (a weight matrix by (output unit, input unit)). -/
structure Params where
  W1 : Fin 64 → Fin 3 → EReal
  b1 : Fin 64 → EReal
  W2 : Fin 64 → Fin 64 → EReal
  b2 : Fin 64 → EReal
  Wih : Fin 256 → Fin 64 → EReal
  Whh : Fin 256 → Fin 64 → EReal
  bih : Fin 256 → EReal
  bhh : Fin 256 → EReal
  Wout : Fin 1 → Fin 64 → EReal
  bout : Fin 1 → EReal

/-- One row of the per-row inputs: gradient, parameter, momentum, and the row of the hidden and of the cell state. -/
structure Row where
  g : EReal
  p : EReal
  mo : EReal
  h : Fin 64 → EReal
  c : Fin 64 → EReal

/-- A dense layer at output unit `q`: the input against row `q` of the weights, plus the bias. -/
def dense {K N : Nat} (x : Fin K → EReal) (W : Fin N → Fin K → EReal) (b : Fin N → EReal) (q : Fin N) : EReal :=
  (∑ k : Fin K, x k * W q k) + b q

/-- The three features: gradient, parameter, updated momentum μ·m₀ + g. -/
def feat (R : Row) : Fin 3 → EReal
  | 0 => R.g
  | 1 => R.p
  | 2 => Ideal.ofBits .f32 0x3F666666#32 * R.mo + R.g

/-- First hidden layer, clipped below at zero. -/
def hid1 (P : Params) (R : Row) (j : Fin 64) : EReal :=
  max (dense (feat R) P.W1 P.b1 j) (Ideal.ofBits .f32 0x00000000#32)

/-- Second hidden layer. -/
def hid2 (P : Params) (R : Row) : Fin 64 → EReal := dense (hid1 P R) P.W2 P.b2

/-- The 256 gate pre-activations, summed in the order input part, its bias, recurrent part, its bias. -/
def gate (P : Params) (R : Row) (q : Fin 256) : EReal :=
  (dense (hid2 P R) P.Wih P.bih q + ∑ k : Fin 64, R.h k * P.Whh q k) + P.bhh q

/-- Column `j` of the run of 64 gate columns that starts at column `o`. -/
def col (o : Nat) (j : Fin 64) (ho : o + 64 ≤ 256) : Fin 256 := ⟨o + j.val, by have := j.isLt; omega⟩

/-- The new cell state. -/
def cell (P : Params) (R : Row) (j : Fin 64) : EReal :=
  Ideal.logistic (gate P R (col 64 j (by decide))) * R.c j
    + Ideal.logistic (gate P R (col 0 j (by decide))) * Ideal.tanh (gate P R (col 128 j (by decide)))

/-- The new hidden state. -/
def hout (P : Params) (R : Row) (j : Fin 64) : EReal :=
  Ideal.logistic (gate P R (col 192 j (by decide))) * Ideal.tanh (cell P R j)

/-- The row's result. -/
def out (P : Params) (R : Row) : EReal := dense (hout P R) P.Wout P.bout 0

/-- The weights read off their arrays. -/
def params (w1 : (⟨2, ![64, 3]⟩ : Shape).Idx → EReal) (b1 : (⟨1, ![64]⟩ : Shape).Idx → EReal)
    (w2 : (⟨2, ![64, 64]⟩ : Shape).Idx → EReal) (b2 : (⟨1, ![64]⟩ : Shape).Idx → EReal)
    (wih whh : (⟨2, ![256, 64]⟩ : Shape).Idx → EReal) (bih bhh : (⟨1, ![256]⟩ : Shape).Idx → EReal)
    (wout : (⟨2, ![1, 64]⟩ : Shape).Idx → EReal) (bout : (⟨1, ![1]⟩ : Shape).Idx → EReal) : Params where
  W1 j k := w1 (ix2 j k)
  b1 j := b1 (ix1 j)
  W2 j k := w2 (ix2 j k)
  b2 j := b2 (ix1 j)
  Wih q k := wih (ix2 q k)
  Whh q k := whh (ix2 q k)
  bih q := bih (ix1 q)
  bhh q := bhh (ix1 q)
  Wout u k := wout (ix2 u k)
  bout u := bout (ix1 u)

/-- Row `r` of the per-row input arrays (of any number `M` of rows). -/
def rowAt {M : Nat} (g p mo : (⟨2, ![M, 1]⟩ : Shape).Idx → EReal) (h c : (⟨2, ![M, 64]⟩ : Shape).Idx → EReal)
    (r : Fin M) : Row where
  g := g (ix2 r 0)
  p := p (ix2 r 0)
  mo := mo (ix2 r 0)
  h k := h (ix2 r k)
  c k := c (ix2 r k)

end Cert.RowSpec

end
-- ==== Proof.KerRow.lean ====
/-
  The kernel body's arithmetic, read at one entry of its one output block, over the extended reals.

  A block is 2048 consecutive rows.  The body forms, for all 2048 rows at once, the three features, the two dense
  layers, the gate pre-activations, the cell and hidden states and the output column; every step treats the rows
  independently, so entry (y, 0) of what it stores is the row function of row y of the blocks it loaded.  Roundings to a
  narrower float format are the identity over the extended reals; a product with a transposed weight matrix added into
  zero is a plain sum; a bias laid along the rows reads its own entry.
-/
import proofs.«161773_j5076651344477_1_alg».proof.Proof.Gen.KernelIdeal.Skeleton
import proofs.«161773_j5076651344477_1_alg».proof.Proof.LibDenseT
import proofs.«161773_j5076651344477_1_alg».proof.Proof.Spec

noncomputable section

open scoped BigOperators

namespace Cert.KerRow

open Cert.KernelIdeal Cert.KernelIdeal.Gen Idealize.ShloMosaic Idealize.ShloMosaic.ValueIdx Idealize.ShloMosaic.PlainMatmul
open Cert.RowSpec Idealize.ShloMosaic.DenseT

/-! The four matrix products of the body are plain ones: columns of the left operand against rows of the right. -/

theorem plain_in : IsPlain dot_S2048x3_S3x64_S2048x64_1_0_0_1_n_n := ⟨rfl, rfl, rfl, rfl, rfl, rfl⟩
theorem plain_hid : IsPlain dot_S2048x64_S64x64_S2048x64_1_0_0_1_n_n := ⟨rfl, rfl, rfl, rfl, rfl, rfl⟩
theorem plain_gate : IsPlain dot_S2048x64_S64x256_S2048x256_1_0_0_1_n_n := ⟨rfl, rfl, rfl, rfl, rfl, rfl⟩
theorem plain_out : IsPlain dot_S2048x64_S64x1_S2048x1_1_0_0_1_n_n := ⟨rfl, rfl, rfl, rfl, rfl, rfl⟩

/-- Rounding a single-precision value to the half-width format is the identity over the extended reals. -/
theorem trunc_at {s : Shape} (a : FVec Ideal s .f32) (h : FTy.bf16.bits < FTy.f32.bits) (i : s.Idx) :
    (truncf .bf16 a h : FVec Ideal s .bf16) i = a i := rfl

/-- The second hidden layer: entry (y, j) of the first half of the body is `hid2` of row y. -/
theorem hidden_at (x0 x1 x2 : Vec Ideal S2048x1 .f32) (x5 : Vec Ideal S64x3 .f32) (x6 : Vec Ideal S64 .f32)
    (x7 : Vec Ideal S64x64 .f32) (x8 : Vec Ideal S64 .f32) (P : Params) (R : Row) (y : Fin 2048)
    (hg : x0 (ix2 y 0) = R.g) (hp : x1 (ix2 y 0) = R.p) (hm : x2 (ix2 y 0) = R.mo)
    (hW1 : ∀ j k, x5 (ix2 j k) = P.W1 j k) (hb1 : ∀ j, x6 (ix1 j) = P.b1 j)
    (hW2 : ∀ j k, x7 (ix2 j k) = P.W2 j k) (hb2 : ∀ j, x8 (ix1 j) = P.b2 j) (j : Fin 64) :
    k0_pay2 (F := Ideal) x0 x1 x2 x5 x6 x7 x8 (ix2 y j) = hid2 P R j := by
  unfold k0_pay2
  dsimp only
  refine (trunc_at _ _ _).trans ?_
  refine denseT_apply _ plain_hid _ _ _ _ _ _ y j (hid1 P R) P.W2 P.b2 (fun k => ?_)
    hW2 hb2
  refine (trunc_at _ _ _).trans ?_
  refine (maximumf_apply _ _ _).trans ?_
  refine congrArg₂ max ?_ rfl
  refine denseT_apply _ plain_in _ _ _ _ _ _ y k (feat R) P.W1 P.b1 (fun k' => ?_)
    hW1 hb1
  refine (trunc_at _ _ _).trans ?_
  obtain ⟨h0, h1, h2⟩ := concat3_apply x0 x1
    (addf (mulf (broadcast S2048x1 (Scalar.ofBits (F := Ideal) .f32 0x3F666666#32)) x2) x0)
    concatenates_S2048x1_S2048x1_S2048x1_S2048x3_d1 y
  match k' with
  | 0 => exact h0.trans hg
  | 1 => exact h1.trans hp
  | 2 =>
    refine h2.trans ?_
    show Ideal.ofBits .f32 0x3F666666#32 * x2 (ix2 y 0) + x0 (ix2 y 0) = _
    rw [hm, hg]
    rfl

/-- The gate pre-activations: entry (y, q) of the 256-wide sum. -/
theorem gate_at (v27 : FVec Ideal S2048x64 .bf16) (v30 : FVec Ideal S2048x64 .bf16) (v32 v34 : FVec Ideal S256x64 .bf16)
    (v35 v36 : Vec Ideal S256 .f32) (P : Params) (R : Row) (y : Fin 2048)
    (h27 : ∀ k, v27 (ix2 y k) = hid2 P R k) (h30 : ∀ k, v30 (ix2 y k) = R.h k)
    (h32 : ∀ q k, v32 (ix2 q k) = P.Wih q k) (h34 : ∀ q k, v34 (ix2 q k) = P.Whh q k)
    (h35 : ∀ q, v35 (ix1 q) = P.bih q) (h36 : ∀ q, v36 (ix1 q) = P.bhh q) (q : Fin 256) :
    addf (addf (addf (matmul dot_S2048x64_S64x256_S2048x256_1_0_0_1_n_n none v27 (transpose S64x256 [1, 0] v32 transposes_S256x64_p1_0_S64x256) (constant (F := Ideal) S2048x256 .f32 0x00000000#32))
          (broadcastTo S2048x256 (shapeCast S1x256 v35 shapeCasts_S256_S1x256) broadcasts_S1x256_S2048x256))
        (matmul dot_S2048x64_S64x256_S2048x256_1_0_0_1_n_n none v30 (transpose S64x256 [1, 0] v34 transposes_S256x64_p1_0_S64x256) (constant (F := Ideal) S2048x256 .f32 0x00000000#32)))
      (broadcastTo S2048x256 (shapeCast S1x256 v36 shapeCasts_S256_S1x256) broadcasts_S1x256_S2048x256) (ix2 y q)
      = gate P R q := by
  unfold gate
  refine (addf_apply _ _ _).trans ?_
  refine congrArg₂ (· + ·) ?_ (biasRow_apply _ _ _ y q P.bhh h36)
  refine (addf_apply _ _ _).trans ?_
  refine congrArg₂ (· + ·) ?_ ?_
  · exact denseT_apply _ plain_gate _ _ _ _ _ _ y q (hid2 P R) P.Wih P.bih h27 h32 h35
  · exact matmulT_apply _ plain_gate _ _ _ y q R.h P.Whh h30 h34

/-- The body's stored value at entry (y, 0) is the row function of row y. -/
theorem stored_at (v27 : FVec Ideal S2048x64 .bf16) (v29 : Vec Ideal S2048x64 .f32) (v30 : FVec Ideal S2048x64 .bf16)
    (v32 v34 : FVec Ideal S256x64 .bf16) (v35 v36 : Vec Ideal S256 .f32) (v62 : Vec Ideal S1x64 .f32) (v64 : Vec Ideal S1 .f32)
    (P : Params) (R : Row) (y : Fin 2048)
    (h27 : ∀ k, v27 (ix2 y k) = hid2 P R k) (h29 : ∀ k, v29 (ix2 y k) = R.c k) (h30 : ∀ k, v30 (ix2 y k) = R.h k)
    (h32 : ∀ q k, v32 (ix2 q k) = P.Wih q k) (h34 : ∀ q k, v34 (ix2 q k) = P.Whh q k)
    (h35 : ∀ q, v35 (ix1 q) = P.bih q) (h36 : ∀ q, v36 (ix1 q) = P.bhh q)
    (h62 : ∀ u k, v62 (ix2 u k) = P.Wout u k) (h64 : ∀ u, v64 (ix1 u) = P.bout u) :
    k0_pay1 (F := Ideal) v27 v29 v30 v32 v34 v35 v36 v62 v64 (ix2 y 0) = out P R := by
  have hgate := gate_at v27 v30 v32 v34 v35 v36 P R y h27 h30 h32 h34 h35 h36
  unfold k0_pay1
  dsimp only
  refine denseT_apply _ plain_out _ _ _ _ _ _ y 0 (hout P R) P.Wout P.bout (fun k => ?_)
    h62 h64
  refine (trunc_at _ _ _).trans ?_
  refine (mulf_apply _ _ _).trans ?_
  refine congrArg₂ (· * ·) ?_ ?_
  · show Ideal.logistic _ = _
    exact congrArg Ideal.logistic ((cols_apply 192 (by decide) _ _ y k).trans (hgate _))
  · show Ideal.tanh _ = _
    refine congrArg Ideal.tanh ?_
    refine (addf_apply _ _ _).trans ?_
    refine congrArg₂ (· + ·) ?_ ?_
    · refine (mulf_apply _ _ _).trans ?_
      refine congrArg₂ (· * ·) ?_ (h29 k)
      show Ideal.logistic _ = _
      exact congrArg Ideal.logistic ((cols_apply 64 (by decide) _ _ y k).trans (hgate _))
    · refine (mulf_apply _ _ _).trans ?_
      refine congrArg₂ (· * ·) ?_ ?_
      · show Ideal.logistic _ = _
        exact congrArg Ideal.logistic ((cols_apply 0 (by decide) _ _ y k).trans (hgate _))
      · show Ideal.tanh _ = _
        exact congrArg Ideal.tanh ((cols_apply 128 (by decide) _ _ y k).trans (hgate _))

end Cert.KerRow

end
-- ==== Proof.Whole.lean ====
/-
  The whole output column as ONE function of the fifteen argument arrays.

  The output has one column; its entry in row r is the row function of row r of the five per-row inputs and of the ten
  weight arrays.  Both programs end with their result array equal to this function of their arguments.
-/
import proofs.«161773_j5076651344477_1_alg».proof.Proof.Spec

noncomputable section

namespace Cert.RowSpec

open Idealize.ShloMosaic Idealize.ShloMosaic.ValueIdx

/-- The output column of an M-row problem: entry (r, ·) is the row function of row r. -/
def result {M : Nat} (g p mo : (⟨2, ![M, 1]⟩ : Shape).Idx → EReal) (h c : (⟨2, ![M, 64]⟩ : Shape).Idx → EReal)
    (w1 : (⟨2, ![64, 3]⟩ : Shape).Idx → EReal) (b1 : (⟨1, ![64]⟩ : Shape).Idx → EReal)
    (w2 : (⟨2, ![64, 64]⟩ : Shape).Idx → EReal) (b2 : (⟨1, ![64]⟩ : Shape).Idx → EReal)
    (wih whh : (⟨2, ![256, 64]⟩ : Shape).Idx → EReal) (bih bhh : (⟨1, ![256]⟩ : Shape).Idx → EReal)
    (wout : (⟨2, ![1, 64]⟩ : Shape).Idx → EReal) (bout : (⟨1, ![1]⟩ : Shape).Idx → EReal) :
    (⟨2, ![M, 1]⟩ : Shape).Idx → EReal :=
  fun i => out (params w1 b1 w2 b2 wih whh bih bhh wout bout) (rowAt g p mo h c (i 0))

/-- At (r, 0) it is the row function of row r. -/
theorem result_apply {M : Nat} (g p mo : (⟨2, ![M, 1]⟩ : Shape).Idx → EReal) (h c : (⟨2, ![M, 64]⟩ : Shape).Idx → EReal)
    (w1 : (⟨2, ![64, 3]⟩ : Shape).Idx → EReal) (b1 : (⟨1, ![64]⟩ : Shape).Idx → EReal)
    (w2 : (⟨2, ![64, 64]⟩ : Shape).Idx → EReal) (b2 : (⟨1, ![64]⟩ : Shape).Idx → EReal)
    (wih whh : (⟨2, ![256, 64]⟩ : Shape).Idx → EReal) (bih bhh : (⟨1, ![256]⟩ : Shape).Idx → EReal)
    (wout : (⟨2, ![1, 64]⟩ : Shape).Idx → EReal) (bout : (⟨1, ![1]⟩ : Shape).Idx → EReal) (r : Fin M) :
    result g p mo h c w1 b1 w2 b2 wih whh bih bhh wout bout (ix2 r 0)
      = out (params w1 b1 w2 b2 wih whh bih bhh wout bout) (rowAt g p mo h c r) := rfl

end Cert.RowSpec

end
-- ==== Proof.Blocks.lean ====
/-
  From blocks to the whole array.

  The 524288 rows are cut into 256 blocks of 2048 consecutive rows; grid point t works on block t of each of the five
  per-row inputs and of the output, and on the whole of each of the ten weight arrays (their one block is the array).
  So row y of point t's block is row t·2048 + y of the array, and an entry of a weight block is the same entry of the
  weight array.  With the body's arithmetic read at an entry, what point t writes back is block t of the whole-array
  function; the 256 blocks cover every row (row r lies in block r / 2048), hence the output array ends as that function
  of the argument arrays.
-/
import proofs.«161773_j5076651344477_1_alg».proof.Proof.Gen.KernelIdeal.Value
import proofs.«161773_j5076651344477_1_alg».proof.Proof.KerRow
import proofs.«161773_j5076651344477_1_alg».proof.Proof.Whole

noncomputable section

namespace Cert.KerBlocks

open Cert.KernelIdeal Cert.KernelIdeal.Gen Cert.KernelIdeal.Value Idealize.ShloMosaic Idealize.ShloMosaic.TcCoe Idealize.SL.Sem
open Idealize.ShloMosaic.ValueIdx Cert.RowSpec
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## Which block each window holds at a point -/

/-- The five per-row inputs and the output are at block (t, 0) at point t. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_15.index t (0 : Fin 2) = t.val ∧ win0_15.index t (1 : Fin 2) = 0 :=
  (by decide +kernel : ∀ t : Fin grid0.N, _)

/-- The five weight matrices stay at block (0, 0). -/
theorem idx_mats : ∀ t : Fin cfg0.N,
    win0_5.index t (0 : Fin 2) = 0 ∧ win0_5.index t (1 : Fin 2) = 0
    ∧ win0_7.index t (0 : Fin 2) = 0 ∧ win0_7.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_13.index t (0 : Fin 2) = 0 ∧ win0_13.index t (1 : Fin 2) = 0 :=
  (by decide +kernel : ∀ t : Fin grid0.N, _)

/-- The five bias vectors stay at block 0. -/
theorem idx_vecs : ∀ t : Fin cfg0.N,
    win0_6.index t (0 : Fin 1) = 0 ∧ win0_8.index t (0 : Fin 1) = 0 ∧ win0_11.index t (0 : Fin 1) = 0
    ∧ win0_12.index t (0 : Fin 1) = 0 ∧ win0_14.index t (0 : Fin 1) = 0 :=
  (by decide +kernel : ∀ t : Fin grid0.N, _)

/-- The array row that row y of point t's block is: t·2048 + y. -/
def rowOf (t : Fin cfg0.N) (y : Fin 2048) : Fin 524288 :=
  ⟨t.val * 2048 + y.val, by
    have ht : t.val < 256 := lt_of_lt_of_eq t.isLt N_0
    have hy : y.val < 2048 := y.isLt
    omega⟩

theorem rowOf_val (t : Fin cfg0.N) (y : Fin 2048) : (rowOf t y).val = t.val * 2048 + y.val := rfl

/-! ## The blocks read back as entries of the arrays -/

/-- Row y of point t's block of the gradients is row t·2048 + y of the array. -/
theorem read0 (c : Dev nD) (t : Fin cfg0.N) (y : Fin 2048) :
    iblk m c 0 t (ix2 y (0 : Fin 1)) = V m c main_arg0 (ix2 (rowOf t y) (0 : Fin 1)) := by
  obtain ⟨e0, e1, -⟩ := idx_rows t
  show V m c main_arg0 (((cfg0.win 0).blk t).view.emb (ix2 y (0 : Fin 1))) = _
  refine congrArg (V m c main_arg0) (funext fun a => Fin.ext ?_)
  match a with
  | ⟨0, _⟩ => show win0_0.index t (0 : Fin 2) * 2048 + 1 * y.val = t.val * 2048 + y.val; omega
  | ⟨1, _⟩ => show win0_0.index t (1 : Fin 2) * 1 + 1 * 0 = 0; omega

/-- The same for the parameters. -/
theorem read1 (c : Dev nD) (t : Fin cfg0.N) (y : Fin 2048) :
    iblk m c 1 t (ix2 y (0 : Fin 1)) = V m c main_arg1 (ix2 (rowOf t y) (0 : Fin 1)) := by
  obtain ⟨-, -, e0, e1, -⟩ := idx_rows t
  show V m c main_arg1 (((cfg0.win 1).blk t).view.emb (ix2 y (0 : Fin 1))) = _
  refine congrArg (V m c main_arg1) (funext fun a => Fin.ext ?_)
  match a with
  | ⟨0, _⟩ => show win0_1.index t (0 : Fin 2) * 2048 + 1 * y.val = t.val * 2048 + y.val; omega
  | ⟨1, _⟩ => show win0_1.index t (1 : Fin 2) * 1 + 1 * 0 = 0; omega

/-- The same for the momentum. -/
theorem read2 (c : Dev nD) (t : Fin cfg0.N) (y : Fin 2048) :
    iblk m c 2 t (ix2 y (0 : Fin 1)) = V m c main_arg2 (ix2 (rowOf t y) (0 : Fin 1)) := by
  obtain ⟨-, -, -, -, e0, e1, -⟩ := idx_rows t
  show V m c main_arg2 (((cfg0.win 2).blk t).view.emb (ix2 y (0 : Fin 1))) = _
  refine congrArg (V m c main_arg2) (funext fun a => Fin.ext ?_)
  match a with
  | ⟨0, _⟩ => show win0_2.index t (0 : Fin 2) * 2048 + 1 * y.val = t.val * 2048 + y.val; omega
  | ⟨1, _⟩ => show win0_2.index t (1 : Fin 2) * 1 + 1 * 0 = 0; omega

/-- Entry (y, k) of point t's block of the hidden state is entry (t·2048 + y, k) of the array. -/
theorem read3 (c : Dev nD) (t : Fin cfg0.N) (y : Fin 2048) (k : Fin 64) :
    iblk m c 3 t (ix2 y k) = V m c main_arg3 (ix2 (rowOf t y) k) := by
  obtain ⟨-, -, -, -, -, -, e0, e1, -⟩ := idx_rows t
  show V m c main_arg3 (((cfg0.win 3).blk t).view.emb (ix2 y k)) = _
  refine congrArg (V m c main_arg3) (funext fun a => Fin.ext ?_)
  match a with
  | ⟨0, _⟩ => show win0_3.index t (0 : Fin 2) * 2048 + 1 * y.val = t.val * 2048 + y.val; omega
  | ⟨1, _⟩ => show win0_3.index t (1 : Fin 2) * 64 + 1 * k.val = k.val; omega

/-- The same for the cell state. -/
theorem read4 (c : Dev nD) (t : Fin cfg0.N) (y : Fin 2048) (k : Fin 64) :
    iblk m c 4 t (ix2 y k) = V m c main_arg4 (ix2 (rowOf t y) k) := by
  obtain ⟨-, -, -, -, -, -, -, -, e0, e1, -⟩ := idx_rows t
  show V m c main_arg4 (((cfg0.win 4).blk t).view.emb (ix2 y k)) = _
  refine congrArg (V m c main_arg4) (funext fun a => Fin.ext ?_)
  match a with
  | ⟨0, _⟩ => show win0_4.index t (0 : Fin 2) * 2048 + 1 * y.val = t.val * 2048 + y.val; omega
  | ⟨1, _⟩ => show win0_4.index t (1 : Fin 2) * 64 + 1 * k.val = k.val; omega

/-- The first layer's weights: the block is the array. -/
theorem read5 (c : Dev nD) (t : Fin cfg0.N) (j : Fin 64) (k : Fin 3) :
    iblk m c 5 t (ix2 j k) = V m c main_arg5 (ix2 j k) := by
  obtain ⟨e0, e1, -⟩ := idx_mats t
  show V m c main_arg5 (((cfg0.win 5).blk t).view.emb (ix2 j k)) = _
  refine congrArg (V m c main_arg5) (funext fun a => Fin.ext ?_)
  match a with
  | ⟨0, _⟩ => show win0_5.index t (0 : Fin 2) * 64 + 1 * j.val = j.val; omega
  | ⟨1, _⟩ => show win0_5.index t (1 : Fin 2) * 3 + 1 * k.val = k.val; omega

/-- The first layer's bias. -/
theorem read6 (c : Dev nD) (t : Fin cfg0.N) (j : Fin 64) : iblk m c 6 t (ix1 j) = V m c main_arg6 (ix1 j) := by
  obtain ⟨e0, -⟩ := idx_vecs t
  show V m c main_arg6 (((cfg0.win 6).blk t).view.emb (ix1 j)) = _
  refine congrArg (V m c main_arg6) (funext fun a => Fin.ext ?_)
  match a with
  | ⟨0, _⟩ => show win0_6.index t (0 : Fin 1) * 64 + 1 * j.val = j.val; omega

/-- The second layer's weights. -/
theorem read7 (c : Dev nD) (t : Fin cfg0.N) (j k : Fin 64) :
    iblk m c 7 t (ix2 j k) = V m c main_arg7 (ix2 j k) := by
  obtain ⟨-, -, e0, e1, -⟩ := idx_mats t
  show V m c main_arg7 (((cfg0.win 7).blk t).view.emb (ix2 j k)) = _
  refine congrArg (V m c main_arg7) (funext fun a => Fin.ext ?_)
  match a with
  | ⟨0, _⟩ => show win0_7.index t (0 : Fin 2) * 64 + 1 * j.val = j.val; omega
  | ⟨1, _⟩ => show win0_7.index t (1 : Fin 2) * 64 + 1 * k.val = k.val; omega

/-- The second layer's bias. -/
theorem read8 (c : Dev nD) (t : Fin cfg0.N) (j : Fin 64) : iblk m c 8 t (ix1 j) = V m c main_arg8 (ix1 j) := by
  obtain ⟨-, e0, -⟩ := idx_vecs t
  show V m c main_arg8 (((cfg0.win 8).blk t).view.emb (ix1 j)) = _
  refine congrArg (V m c main_arg8) (funext fun a => Fin.ext ?_)
  match a with
  | ⟨0, _⟩ => show win0_8.index t (0 : Fin 1) * 64 + 1 * j.val = j.val; omega

/-- The gates' input weights. -/
theorem read9 (c : Dev nD) (t : Fin cfg0.N) (q : Fin 256) (k : Fin 64) :
    iblk m c 9 t (ix2 q k) = V m c main_arg9 (ix2 q k) := by
  obtain ⟨-, -, -, -, e0, e1, -⟩ := idx_mats t
  show V m c main_arg9 (((cfg0.win 9).blk t).view.emb (ix2 q k)) = _
  refine congrArg (V m c main_arg9) (funext fun a => Fin.ext ?_)
  match a with
  | ⟨0, _⟩ => show win0_9.index t (0 : Fin 2) * 256 + 1 * q.val = q.val; omega
  | ⟨1, _⟩ => show win0_9.index t (1 : Fin 2) * 64 + 1 * k.val = k.val; omega

/-- The gates' recurrent weights. -/
theorem read10 (c : Dev nD) (t : Fin cfg0.N) (q : Fin 256) (k : Fin 64) :
    iblk m c 10 t (ix2 q k) = V m c main_arg10 (ix2 q k) := by
  obtain ⟨-, -, -, -, -, -, e0, e1, -⟩ := idx_mats t
  show V m c main_arg10 (((cfg0.win 10).blk t).view.emb (ix2 q k)) = _
  refine congrArg (V m c main_arg10) (funext fun a => Fin.ext ?_)
  match a with
  | ⟨0, _⟩ => show win0_10.index t (0 : Fin 2) * 256 + 1 * q.val = q.val; omega
  | ⟨1, _⟩ => show win0_10.index t (1 : Fin 2) * 64 + 1 * k.val = k.val; omega

/-- The gates' input bias. -/
theorem read11 (c : Dev nD) (t : Fin cfg0.N) (q : Fin 256) : iblk m c 11 t (ix1 q) = V m c main_arg11 (ix1 q) := by
  obtain ⟨-, -, e0, -⟩ := idx_vecs t
  show V m c main_arg11 (((cfg0.win 11).blk t).view.emb (ix1 q)) = _
  refine congrArg (V m c main_arg11) (funext fun a => Fin.ext ?_)
  match a with
  | ⟨0, _⟩ => show win0_11.index t (0 : Fin 1) * 256 + 1 * q.val = q.val; omega

/-- The gates' recurrent bias. -/
theorem read12 (c : Dev nD) (t : Fin cfg0.N) (q : Fin 256) : iblk m c 12 t (ix1 q) = V m c main_arg12 (ix1 q) := by
  obtain ⟨-, -, -, e0, -⟩ := idx_vecs t
  show V m c main_arg12 (((cfg0.win 12).blk t).view.emb (ix1 q)) = _
  refine congrArg (V m c main_arg12) (funext fun a => Fin.ext ?_)
  match a with
  | ⟨0, _⟩ => show win0_12.index t (0 : Fin 1) * 256 + 1 * q.val = q.val; omega

/-- The output layer's weights. -/
theorem read13 (c : Dev nD) (t : Fin cfg0.N) (u : Fin 1) (k : Fin 64) :
    iblk m c 13 t (ix2 u k) = V m c main_arg13 (ix2 u k) := by
  obtain ⟨-, -, -, -, -, -, -, -, e0, e1⟩ := idx_mats t
  show V m c main_arg13 (((cfg0.win 13).blk t).view.emb (ix2 u k)) = _
  refine congrArg (V m c main_arg13) (funext fun a => Fin.ext ?_)
  match a with
  | ⟨0, _⟩ => show win0_13.index t (0 : Fin 2) * 1 + 1 * u.val = u.val; omega
  | ⟨1, _⟩ => show win0_13.index t (1 : Fin 2) * 64 + 1 * k.val = k.val; omega

/-- The output layer's bias. -/
theorem read14 (c : Dev nD) (t : Fin cfg0.N) (u : Fin 1) : iblk m c 14 t (ix1 u) = V m c main_arg14 (ix1 u) := by
  obtain ⟨-, -, -, -, e0⟩ := idx_vecs t
  show V m c main_arg14 (((cfg0.win 14).blk t).view.emb (ix1 u)) = _
  refine congrArg (V m c main_arg14) (funext fun a => Fin.ext ?_)
  match a with
  | ⟨0, _⟩ => show win0_14.index t (0 : Fin 1) * 1 + 1 * u.val = u.val; omega

/-- Row y of point t's output block is row t·2048 + y of the output array. -/
theorem emb_out (t : Fin cfg0.N) (y : Fin 2048) :
    ((cfg0.win 15).blk t).view.emb (ix2 y (0 : Fin 1)) = ix2 (rowOf t y) (0 : Fin 1) := by
  obtain ⟨-, -, -, -, -, -, -, -, -, -, e0, e1⟩ := idx_rows t
  refine funext fun a => Fin.ext ?_
  match a with
  | ⟨0, _⟩ => show win0_15.index t (0 : Fin 2) * 2048 + 1 * y.val = t.val * 2048 + y.val; omega
  | ⟨1, _⟩ => show win0_15.index t (1 : Fin 2) * 1 + 1 * 0 = 0; omega

/-! ## What a point writes back, the cover, and the final array -/

/-- WHAT POINT t WRITES BACK is block t of the whole-array function of the argument arrays. -/
theorem flushed_eq (c : Dev nD) (t : Fin cfg0.N) :
    (dats m 0 c).flushed 15 t = ((cfg0.win 15).blk t).view.read (Elt Ideal)
      (result (V m c main_arg0) (V m c main_arg1) (V m c main_arg2) (V m c main_arg3) (V m c main_arg4) (V m c main_arg5)
        (V m c main_arg6) (V m c main_arg7) (V m c main_arg8) (V m c main_arg9) (V m c main_arg10) (V m c main_arg11)
        (V m c main_arg12) (V m c main_arg13) (V m c main_arg14)) := by
  rw [flushed15]
  unfold out0_15
  rw [View.canon_unit_zero hz2]
  simp only [View.ld_unit_zero (S := S2048x1) hz2, View.ld_unit_zero (S := S2048x64) hz2, View.ld_unit_zero (S := S64x3) hz2,
    View.ld_unit_zero (S := S64x64) hz2, View.ld_unit_zero (S := S256x64) hz2, View.ld_unit_zero (S := S1x64) hz2,
    View.ld_unit_zero (S := S64) hz1, View.ld_unit_zero (S := S256) hz1, View.ld_unit_zero (S := S1) hz1]
  funext y
  obtain ⟨y0, u, rfl⟩ : ∃ (y0 : Fin 2048) (u : Fin 1), y = ix2 y0 u := ⟨y 0, y 1, eq_ix2 y⟩
  obtain rfl : u = 0 := Subsingleton.elim _ _
  show _ = result (V m c main_arg0) (V m c main_arg1) (V m c main_arg2) (V m c main_arg3) (V m c main_arg4) (V m c main_arg5)
    (V m c main_arg6) (V m c main_arg7) (V m c main_arg8) (V m c main_arg9) (V m c main_arg10) (V m c main_arg11)
    (V m c main_arg12) (V m c main_arg13) (V m c main_arg14) (((cfg0.win 15).blk t).view.emb (ix2 y0 (0 : Fin 1)))
  rw [emb_out t y0, result_apply]
  exact KerRow.stored_at
    (k0_pay2 (iblk m c 0 t) (iblk m c 1 t) (iblk m c 2 t) (iblk m c 5 t) (iblk m c 6 t) (iblk m c 7 t) (iblk m c 8 t))
    (iblk m c 4 t) (k0_pay3 (iblk m c 3 t)) (k0_pay4 (iblk m c 9 t)) (k0_pay5 (iblk m c 10 t)) (iblk m c 11 t) (iblk m c 12 t)
    (iblk m c 13 t) (iblk m c 14 t)
    (params (V m c main_arg5) (V m c main_arg6) (V m c main_arg7) (V m c main_arg8) (V m c main_arg9) (V m c main_arg10)
      (V m c main_arg11) (V m c main_arg12) (V m c main_arg13) (V m c main_arg14))
    (rowAt (V m c main_arg0) (V m c main_arg1) (V m c main_arg2) (V m c main_arg3) (V m c main_arg4) (rowOf t y0)) y0
    (fun k => KerRow.hidden_at (iblk m c 0 t) (iblk m c 1 t) (iblk m c 2 t) (iblk m c 5 t) (iblk m c 6 t) (iblk m c 7 t)
      (iblk m c 8 t)
      (params (V m c main_arg5) (V m c main_arg6) (V m c main_arg7) (V m c main_arg8) (V m c main_arg9) (V m c main_arg10)
        (V m c main_arg11) (V m c main_arg12) (V m c main_arg13) (V m c main_arg14))
      (rowAt (V m c main_arg0) (V m c main_arg1) (V m c main_arg2) (V m c main_arg3) (V m c main_arg4) (rowOf t y0)) y0
      (read0 m c t y0) (read1 m c t y0) (read2 m c t y0) (fun j k => read5 m c t j k) (fun j => read6 m c t j)
      (fun j k => read7 m c t j k) (fun j => read8 m c t j) k)
    (fun k => read4 m c t y0 k) (fun k => read3 m c t y0 k) (fun q k => read9 m c t q k) (fun q k => read10 m c t q k)
    (fun q => read11 m c t q) (fun q => read12 m c t q) (fun u k => read13 m c t u k) (fun u => read14 m c t u)

/-- An index of the output array is in point t's block iff each coordinate is in the block's range on its axis. -/
theorem mem_blk (t : Fin cfg0.N) (i : S524288x1.Idx) :
    i ∈ ((cfg0.win 15).blk t).view.set ↔ ∀ a : Fin 2, win0_15.index t a * S2048x1.size a ≤ (i a).val ∧ (i a).val < win0_15.index t a * S2048x1.size a + S2048x1.size a := by
  show i ∈ ((View.whole main_v0).slice (win0_15.rect t)).set ↔ _
  rw [View.set_slice_whole, Rect.mem_set_unit]
  exact Iff.rfl

/-- Every row of the output lies in some point's block: row r in block r / 2048. -/
theorem cover (i : S524288x1.Idx) :
    ∃ t : Fin cfg0.N, (cfg0.win 15).flush t = true ∧ i ∈ ((cfg0.win 15).blk t).view.set := by
  have hi0 : (i 0).val < 524288 := (i 0).isLt
  have hi1 : (i 1).val < 1 := (i 1).isLt
  have hN : cfg0.N = 256 := N_0
  obtain ⟨t, ht⟩ : ∃ t : Fin cfg0.N, t.val = (i 0).val / 2048 := ⟨⟨(i 0).val / 2048, by rw [hN]; omega⟩, rfl⟩
  obtain ⟨-, -, -, -, -, -, -, -, -, -, e0, e1⟩ := idx_rows t
  refine ⟨t, flush0_15 t, ?_⟩
  rw [mem_blk]
  intro a
  match a with
  | ⟨0, _⟩ =>
    show win0_15.index t (0 : Fin 2) * 2048 ≤ (i 0).val ∧ (i 0).val < win0_15.index t (0 : Fin 2) * 2048 + 2048
    omega
  | ⟨1, _⟩ =>
    show win0_15.index t (1 : Fin 2) * 1 ≤ (i 1).val ∧ (i 1).val < win0_15.index t (1 : Fin 2) * 1 + 1
    omega

/-- THE OUTPUT ARRAY after the run is the whole-array function of the argument arrays. -/
theorem final (c : Dev nD) : (dats m 0 c).arrAt 15 cfg0.N
    = result (V m c main_arg0) (V m c main_arg1) (V m c main_arg2) (V m c main_arg3) (V m c main_arg4) (V m c main_arg5)
        (V m c main_arg6) (V m c main_arg7) (V m c main_arg8) (V m c main_arg9) (V m c main_arg10) (V m c main_arg11)
        (V m c main_arg12) (V m c main_arg13) (V m c main_arg14) :=
  (dats m 0 c).arrAt_eq_of_cover 15 _ (fun t _ => flushed_eq m c t) cover

/-- The kernel's run re-posted: the output array at the whole-array function of the arguments, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11))
            (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (run_blocks m ρ)

end Cert.KerBlocks

end
-- ==== Proof.RefRow.lean ====
/-
  The reference program, read at one entry, over the extended reals.

  The reference applies the same chain of operations to all 524288 rows at once: the features by joining three
  columns, each dense layer as a matrix product with the transposed weights plus the bias repeated down the rows, the
  gates by cutting four runs of 64 columns, the logistic function spelt out as 1 / (1 + e^(-x)), and the output column.
  Read at row r, each stage is the row function's stage at row r of the inputs.  The one fact about numbers used is that
  the float pattern of 1.0 denotes the extended real 1, which makes the spelt-out quotient the logistic function.
-/
import proofs.«161773_j5076651344477_1_alg».proof.Proof.Gen.ReferenceIdeal.Read
import proofs.«161773_j5076651344477_1_alg».proof.Proof.LibDenseT
import proofs.«161773_j5076651344477_1_alg».proof.Proof.Spec
import proofs.«161773_j5076651344477_1_alg».proof.Proof.Whole
import Idealize.ShloMosaic.Lib.IdealHost

noncomputable section

open scoped BigOperators

namespace Cert.RefRow

open Cert.ReferenceIdeal Cert.ReferenceIdeal.Gen Cert.ReferenceIdeal.Read Idealize.ShloMosaic Idealize.ShloMosaic.ValueIdx
open Cert.RowSpec Idealize.ShloMosaic.DenseT

variable (x0 x1 x2 : (⟨S524288x1, .f32⟩ : BufTy).Contents (Elt Ideal)) (x3 x4 : (⟨S524288x64, .f32⟩ : BufTy).Contents (Elt Ideal))
  (x5 : (⟨S64x3, .f32⟩ : BufTy).Contents (Elt Ideal)) (x6 : (⟨S64, .f32⟩ : BufTy).Contents (Elt Ideal))
  (x7 : (⟨S64x64, .f32⟩ : BufTy).Contents (Elt Ideal)) (x8 : (⟨S64, .f32⟩ : BufTy).Contents (Elt Ideal))
  (x9 x10 : (⟨S256x64, .f32⟩ : BufTy).Contents (Elt Ideal)) (x11 x12 : (⟨S256, .f32⟩ : BufTy).Contents (Elt Ideal))
  (x13 : (⟨S1x64, .f32⟩ : BufTy).Contents (Elt Ideal)) (x14 : (⟨S1, .f32⟩ : BufTy).Contents (Elt Ideal))

local notation "PP" => params x5 x6 x7 x8 x9 x10 x11 x12 x13 x14
local notation "RR(" r ")" => rowAt x0 x1 x2 x3 x4 r

/-- The three joined columns at (r, k) are the features of row r. -/
theorem feat_at (r : Fin 524288) (k : Fin 3) : val_main_v3 (F := Ideal) x0 x1 x2 (ix2 r k) = feat RR(r) k := by
  unfold val_main_v3
  obtain ⟨h0, h1, h2⟩ := concat3_apply x0 x1 (val_main_v2 (F := Ideal) x0 x2)
    concatenates_S524288x1_S524288x1_S524288x1_S524288x3_d1 r
  match k with
  | 0 => exact h0
  | 1 => exact h1
  | 2 =>
    refine h2.trans ?_
    rw [val_main_v2_apply, val_main_v1_apply, val_main_v0_apply, val_main_cst_apply]
    rfl

/-- The first hidden layer at (r, j). -/
theorem hid1_at (r : Fin 524288) (j : Fin 64) : val_main_v9 (F := Ideal) x0 x1 x2 x5 x6 (ix2 r j) = hid1 PP RR(r) j := by
  have e1 : ∀ k, lidx_main_v5 (ix2 r j) k = ix2 r k := fun k => funext fun a => match a with | ⟨0, _⟩ => rfl | ⟨1, _⟩ => rfl
  have e2 : ∀ k, idx_main_v4 (ridx_main_v5 (ix2 r j) k) = ix2 j k := fun k => funext fun a => match a with | ⟨0, _⟩ => rfl | ⟨1, _⟩ => rfl
  have e3 : idx_main_v6 (idx_main_v7 (ix2 r j)) = ix1 j := funext fun a => match a with | ⟨0, _⟩ => rfl
  simp only [val_main_v9_apply, val_main_v8_apply, val_main_v5_apply, val_main_v7_apply, val_main_v6_apply,
    val_main_call0_v0_apply, val_main_call0_cst_apply, val_main_v4_apply, e1, e2, e3, feat_at x0 x1 x2 x3 x4]
  rfl

/-- The second hidden layer at (r, j). -/
theorem hid2_at (r : Fin 524288) (j : Fin 64) :
    val_main_v14 (F := Ideal) x0 x1 x2 x5 x6 x7 x8 (ix2 r j) = hid2 PP RR(r) j := by
  have e1 : ∀ k, lidx_main_v11 (ix2 r j) k = ix2 r k := fun k => funext fun a => match a with | ⟨0, _⟩ => rfl | ⟨1, _⟩ => rfl
  have e2 : ∀ k, idx_main_v10 (ridx_main_v11 (ix2 r j) k) = ix2 j k := fun k => funext fun a => match a with | ⟨0, _⟩ => rfl | ⟨1, _⟩ => rfl
  have e3 : idx_main_v12 (idx_main_v13 (ix2 r j)) = ix1 j := funext fun a => match a with | ⟨0, _⟩ => rfl
  simp only [val_main_v14_apply, val_main_v11_apply, val_main_v13_apply, val_main_v12_apply, val_main_v10_apply, e1, e2, e3,
    hid1_at x0 x1 x2 x3 x4 x5 x6 x7 x8 x9 x10 x11 x12 x13 x14]
  rfl

/-- The gate pre-activations at (r, q). -/
theorem gate_at (r : Fin 524288) (q : Fin 256) :
    val_main_v25 (F := Ideal) x0 x1 x2 x3 x5 x6 x7 x8 x9 x10 x11 x12 (ix2 r q) = gate PP RR(r) q := by
  have e1 : ∀ k, lidx_main_v16 (ix2 r q) k = ix2 r k := fun k => funext fun a => match a with | ⟨0, _⟩ => rfl | ⟨1, _⟩ => rfl
  have e2 : ∀ k, idx_main_v15 (ridx_main_v16 (ix2 r q) k) = ix2 q k := fun k => funext fun a => match a with | ⟨0, _⟩ => rfl | ⟨1, _⟩ => rfl
  have e3 : idx_main_v17 (idx_main_v18 (ix2 r q)) = ix1 q := funext fun a => match a with | ⟨0, _⟩ => rfl
  have e4 : ∀ k, lidx_main_v21 (ix2 r q) k = ix2 r k := fun k => funext fun a => match a with | ⟨0, _⟩ => rfl | ⟨1, _⟩ => rfl
  have e5 : ∀ k, idx_main_v20 (ridx_main_v21 (ix2 r q) k) = ix2 q k := fun k => funext fun a => match a with | ⟨0, _⟩ => rfl | ⟨1, _⟩ => rfl
  have e6 : idx_main_v23 (idx_main_v24 (ix2 r q)) = ix1 q := funext fun a => match a with | ⟨0, _⟩ => rfl
  simp only [val_main_v25_apply, val_main_v22_apply, val_main_v19_apply, val_main_v16_apply, val_main_v18_apply,
    val_main_v17_apply, val_main_v21_apply, val_main_v24_apply, val_main_v23_apply, val_main_v15_apply, val_main_v20_apply,
    e1, e2, e3, e4, e5, e6, hid2_at x0 x1 x2 x3 x4 x5 x6 x7 x8 x9 x10 x11 x12 x13 x14]
  rfl

/-- A run of 64 gate columns starting at column o, read at (r, j). -/
theorem col_eq (o : Nat) (ho : o + 64 ≤ 256) (r : Fin 524288) (j : Fin 64) (i : S524288x256.Idx)
    (h0 : (i 0).val = r.val) (h1 : (i 1).val = o + j.val) : i = ix2 r (col o j ho) :=
  funext fun a => Fin.ext (match a with | ⟨0, _⟩ => h0 | ⟨1, _⟩ => h1)

/-- The new cell state at (r, j). -/
theorem cell_at (r : Fin 524288) (j : Fin 64) :
    val_main_v45 (F := Ideal) x0 x1 x2 x3 x4 x5 x6 x7 x8 x9 x10 x11 x12 (ix2 r j) = cell PP RR(r) j := by
  have e26 : idx_main_v26 (ix2 r j) = ix2 r (col 0 j (by decide)) := col_eq 0 _ r j _ rfl (Nat.zero_add _).symm
  have e27 : idx_main_v27 (ix2 r j) = ix2 r (col 64 j (by decide)) := col_eq 64 _ r j _ rfl rfl
  have e28 : idx_main_v28 (ix2 r j) = ix2 r (col 128 j (by decide)) := col_eq 128 _ r j _ rfl rfl
  simp only [val_main_v45_apply, val_main_v36_apply, val_main_v35_apply, val_main_v34_apply, val_main_cst_1_apply,
    val_main_v33_apply, val_main_v32_apply, val_main_cst_0_apply, val_main_v31_apply, val_main_v30_apply, val_main_v27_apply,
    val_main_v44_apply, val_main_v42_apply, val_main_v41_apply, val_main_cst_3_apply, val_main_v40_apply, val_main_v39_apply,
    val_main_cst_2_apply, val_main_v38_apply, val_main_v37_apply, val_main_v26_apply, val_main_v43_apply, val_main_v28_apply,
    e26, e27, e28, gate_at x0 x1 x2 x3 x4 x5 x6 x7 x8 x9 x10 x11 x12 x13 x14, Ideal.ofBits_def, Ideal.ofBits_one_f32]
  rfl

/-- The new hidden state at (r, j). -/
theorem hout_at (r : Fin 524288) (j : Fin 64) :
    val_main_v53 (F := Ideal) x0 x1 x2 x3 x4 x5 x6 x7 x8 x9 x10 x11 x12 (ix2 r j) = hout PP RR(r) j := by
  have e29 : idx_main_v29 (ix2 r j) = ix2 r (col 192 j (by decide)) := col_eq 192 _ r j _ rfl rfl
  simp only [val_main_v53_apply, val_main_v51_apply, val_main_v50_apply, val_main_cst_5_apply, val_main_v49_apply,
    val_main_v48_apply, val_main_cst_4_apply, val_main_v47_apply, val_main_v46_apply, val_main_v29_apply, val_main_v52_apply,
    e29, gate_at x0 x1 x2 x3 x4 x5 x6 x7 x8 x9 x10 x11 x12 x13 x14, cell_at x0 x1 x2 x3 x4 x5 x6 x7 x8 x9 x10 x11 x12 x13 x14, Ideal.ofBits_def, Ideal.ofBits_one_f32]
  rfl

/-- The reference's result at (r, 0) is the row function of row r. -/
theorem out_at (r : Fin 524288) :
    val_main_v58 (F := Ideal) x0 x1 x2 x3 x4 x5 x6 x7 x8 x9 x10 x11 x12 x13 x14 (ix2 r 0) = out PP RR(r) := by
  have e1 : ∀ k, lidx_main_v55 (ix2 r (0 : Fin 1)) k = ix2 r k := fun k => funext fun a => match a with | ⟨0, _⟩ => rfl | ⟨1, _⟩ => rfl
  have e2 : ∀ k, idx_main_v54 (ridx_main_v55 (ix2 r (0 : Fin 1)) k) = ix2 (0 : Fin 1) k := fun k => funext fun a => match a with | ⟨0, _⟩ => rfl | ⟨1, _⟩ => rfl
  have e3 : idx_main_v56 (idx_main_v57 (ix2 r (0 : Fin 1))) = ix1 (0 : Fin 1) := funext fun a => match a with | ⟨0, _⟩ => rfl
  simp only [val_main_v58_apply, val_main_v55_apply, val_main_v57_apply, val_main_v56_apply, val_main_v54_apply, e1, e2, e3,
    hout_at x0 x1 x2 x3 x4 x5 x6 x7 x8 x9 x10 x11 x12 x13 x14]
  rfl

/-- The reference's result array is the whole-array function of its arguments. -/
theorem whole : val_main_v58 (F := Ideal) x0 x1 x2 x3 x4 x5 x6 x7 x8 x9 x10 x11 x12 x13 x14
    = result x0 x1 x2 x3 x4 x5 x6 x7 x8 x9 x10 x11 x12 x13 x14 := by
  funext i
  obtain ⟨r, u, rfl⟩ : ∃ (r : Fin 524288) (u : Fin 1), i = ix2 r u := ⟨i 0, i 1, eq_ix2 i⟩
  obtain rfl : u = 0 := Subsingleton.elim _ _
  exact out_at x0 x1 x2 x3 x4 x5 x6 x7 x8 x9 x10 x11 x12 x13 x14 r

end Cert.RefRow

end
-- ==== Proof.lean ====
/-
  A learned optimizer step, one row at a time: the kernel against the reference.

  Both programs take, for each of 524288 independent rows, a gradient, a parameter and a momentum value together with
  a row of hidden state and a row of cell state, and ten shared weight arrays.  Each row's result is

      features  = (g, p, μ·m₀ + g)
      hidden₁   = max (features · W₁ᵀ + b₁, 0)
      hidden₂   = hidden₁ · W₂ᵀ + b₂
      gates     = hidden₂ · W_ihᵀ + b_ih + h · W_hhᵀ + b_hh          (256 of them: input, forget, candidate, output)
      cell      = σ(forget) · c + σ(input) · tanh(candidate)
      hidden    = σ(output) · tanh(cell)
      result    = hidden · W_outᵀ + b_out

  with σ the logistic function.  The kernel computes this for 2048 rows at a time, with its matrix products taken on
  operands rounded to a narrower float format and added into a zero matrix; the reference computes it for all rows at
  once with σ spelt out as 1 / (1 + e^(-x)).  Over the extended reals a change of float format is the identity, a
  product added into zero is the plain sum, and the logistic function IS that quotient, so the two programs apply the
  same operations in the same order to the same numbers: no law of arithmetic is needed, and the inputs' finiteness is
  never used.

  Proof/Spec.lean states the row function; Proof/KerRow.lean reads the kernel body's arithmetic at an entry of a block
  and Proof/Blocks.lean assembles the 256 blocks into the output array (over the generated frame run and value leg);
  Proof/RefRow.lean reads the reference's generated run at an entry.  Here the two runs are set side by side.  The
  three frame claims are the generated frame proofs (the reference's is its generated run with the result dropped), and
  the idealization changed nothing that needs a statement.
-/
import proofs.«161773_j5076651344477_1_alg».proof.Defs
import proofs.«161773_j5076651344477_1_alg».proof.Proof.Gen.Kernel
import proofs.«161773_j5076651344477_1_alg».proof.Proof.Gen.Kernel.Skeleton
import proofs.«161773_j5076651344477_1_alg».proof.Proof.Gen.Kernel.Launch
import proofs.«161773_j5076651344477_1_alg».proof.Proof.Gen.Kernel.Points
import proofs.«161773_j5076651344477_1_alg».proof.Proof.Gen.Kernel.Frame
import proofs.«161773_j5076651344477_1_alg».proof.Proof.Gen.KernelIdeal
import proofs.«161773_j5076651344477_1_alg».proof.Proof.Gen.KernelIdeal.Skeleton
import proofs.«161773_j5076651344477_1_alg».proof.Proof.Gen.KernelIdeal.Launch
import proofs.«161773_j5076651344477_1_alg».proof.Proof.Gen.KernelIdeal.Points
import proofs.«161773_j5076651344477_1_alg».proof.Proof.Gen.KernelIdeal.Frame
import proofs.«161773_j5076651344477_1_alg».proof.Proof.Gen.ReferenceIdeal
import proofs.«161773_j5076651344477_1_alg».proof.Proof.Gen.Pre_finite_inputs
import proofs.«161773_j5076651344477_1_alg».proof.Proof.Gen.KernelIdeal.Value
import proofs.«161773_j5076651344477_1_alg».proof.Proof.Gen.ReferenceIdeal.Run
import proofs.«161773_j5076651344477_1_alg».proof.Proof.Gen.ReferenceIdeal.Read
import proofs.«161773_j5076651344477_1_alg».proof.Proof.Blocks
import proofs.«161773_j5076651344477_1_alg».proof.Proof.RefRow
import Idealize.ShloMosaic.Adequacy
import Idealize.ShloMosaic.Init

noncomputable section

namespace Cert.Proof

open Idealize.ShloMosaic Idealize.ShloMosaic.TcCoe Idealize.SL.Sem

/-- Every execution of the word-level kernel terminates without a fault and leaves its arguments unchanged. -/
theorem frame_kernel : Cert.frame_Kernel := fun m ρ _ => Cert.Kernel.Gen.frame m ρ

/-- The same for the idealized kernel. -/
theorem frame_kernelIdeal : Cert.frame_KernelIdeal := fun m ρ _ => Cert.KernelIdeal.Gen.frame m ρ

/-- The same for the idealized reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing that carries a statement. -/
theorem preserves : Cert.preserves_Kernel_KernelIdeal := trivial

/-- From arguments that agree, the idealized kernel and the idealized reference both end with the output array equal
    to the whole-array function of the arguments: the kernel block by block, the reference stage by stage. -/
theorem algebraic : Cert.algebraic_KernelIdeal_ReferenceIdeal := by
  intro m ρ m' ρ' _ hagree
  refine ⟨_, Cert.KerBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v58_eq, Cert.RefRow.whole, h0, h1, h2, h3, h4, h5, h6, h7, h8, h9, h10, h11, h12,
    h13, h14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
